-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000 : Shape := ⟨1, ![100000]⟩
abbrev S2x1600000 : Shape := ⟨2, ![2, 1600000]⟩
abbrev S100x128 : Shape := ⟨2, ![100, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S64 .f32) (main_arg11 : FVec F S64x1 .f32) (main_arg12 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg11
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x3 .f32) (main_arg1 : IVec S100000 32) (main_arg2 : IVec S100000 32) (main_arg3 : IVec S2x1600000 32) (main_arg4 : FVec F S100x128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100x128 .f32 := Host.absf main_arg4
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S100000x3 : Shape := ⟨2, ![100000, 3]⟩
abbrev S100000 : Shape := ⟨1, ![100000]⟩
abbrev S2x1600000 : Shape := ⟨2, ![2, 1600000]⟩
abbrev S100x128 : Shape := ⟨2, ![100, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S100000x1 : Shape := ⟨2, ![100000, 1]⟩
abbrev S100000x128 : Shape := ⟨2, ![100000, 128]⟩
abbrev S1x1600000 : Shape := ⟨2, ![1, 1600000]⟩
abbrev S1600000 : Shape := ⟨1, ![1600000]⟩
abbrev S1600000x1 : Shape := ⟨2, ![1600000, 1]⟩
abbrev S5000x128 : Shape := ⟨2, ![5000, 128]⟩
abbrev S1600000x128 : Shape := ⟨2, ![1600000, 128]⟩
abbrev S5000x1 : Shape := ⟨2, ![5000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 112
  | .vmem => 35
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S100000, .i32⟩
  | .hbm, ⟨3, _⟩ => ⟨S2x1600000, .i32⟩
  | .hbm, ⟨4, _⟩ => ⟨S100x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x128, .f32⟩
  | .hbm, ⟨22, _⟩ => ⟨S1x1600000, .i32⟩
  | .hbm, ⟨23, _⟩ => ⟨S1600000, .i32⟩
  | .hbm, ⟨24, _⟩ => ⟨S1x1600000, .i32⟩
  | .hbm, ⟨25, _⟩ => ⟨S1600000, .i32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000, .f32⟩
  | .hbm, ⟨64, _⟩ => ⟨S1600000x1, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S1600000x128, .f32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S256x128, .f32⟩
  | .hbm, ⟨103, _⟩ => ⟨S100000x1, .i32⟩
  | .hbm, ⟨104, _⟩ => ⟨S256x128, .f32⟩
  | .hbm, ⟨105, _⟩ => ⟨S_, .f32⟩
  | .hbm, ⟨106, _⟩ => ⟨S256, .f32⟩
  | .hbm, ⟨107, _⟩ => ⟨S100000x1, .i32⟩
  | .hbm, ⟨108, _⟩ => ⟨S256, .f32⟩
  | .hbm, ⟨109, _⟩ => ⟨S256x1, .f32⟩
  | .hbm, ⟨110, _⟩ => ⟨S256x1, .f32⟩
  | .hbm, ⟨111, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S256x128, .f32⟩
  | .local _ .vmem, ⟨29, _⟩ => ⟨S256x1, .f32⟩
  | .local _ .vmem, ⟨30, _⟩ => ⟨S128x64, .f32⟩
  | .local _ .vmem, ⟨31, _⟩ => ⟨S64, .f32⟩
  | .local _ .vmem, ⟨32, _⟩ => ⟨S64x1, .f32⟩
  | .local _ .vmem, ⟨33, _⟩ => ⟨S1, .f32⟩
  | .local _ .vmem, ⟨34, _⟩ => ⟨S256x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S256x128 : S_.BroadcastsInDim S256x128 (![] : Fin 0 → Fin S256x128.rank)
  bcast_S_S256 : S_.BroadcastsInDim S256 (![] : Fin 0 → Fin S256.rank)
  shapeCasts_S256_S256x1 : S256.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  shapeCasts_S256x1_S256 : S256x1.ShapeCasts S256
  gather_S100x128_S100000x1_S100000x128_1_0_n_n_0_1_1128_wf : GatherDims.WF S100x128 S100000x1 S100000x128 [1] [0] [] [0] [] 1 ![1, 128]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x1.size a ≤ S256x1.size a
  hwx4_1 : ∀ i : grid4.Coords, EltTy.bits .f32 = 32 ∨ (Rect.block (s := S256x1) S256x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1.size a ≤ S1.size a
  hwx4_5 : ∀ i : grid4.Coords, EltTy.bits .f32 = 32 ∨ (Rect.block (s := S1) S1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x1.size a ≤ S256x1.size a
  hwx4_6 : ∀ i : grid4.Coords, EltTy.bits .f32 = 32 ∨ (Rect.block (s := S256x1) S256x1.size (cc4_transform_6 i) (hinb4_6 i)).WholeWords (EltTy.packing .f32)

variable [Facts₀]

def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v70) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v74) S256x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S256x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x3 : Shape := ⟨2, ![100000, 3]⟩
abbrev S100000 : Shape := ⟨1, ![100000]⟩
abbrev S2x1600000 : Shape := ⟨2, ![2, 1600000]⟩
abbrev S100x128 : Shape := ⟨2, ![100, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S100000x1 : Shape := ⟨2, ![100000, 1]⟩
abbrev S100000x128 : Shape := ⟨2, ![100000, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S100000x3, .f32⟩
  | 1 => ⟨S100000, .i32⟩
  | 2 => ⟨S100000, .i32⟩
  | 3 => ⟨S2x1600000, .i32⟩
  | 4 => ⟨S100x128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S1x1600000, .i32⟩
  | 23 => ⟨S1600000, .i32⟩
  | 24 => ⟨S1x1600000, .i32⟩
  | 25 => ⟨S1600000, .i32⟩
  | 26 => ⟨S100000x128, .f32⟩
  | 27 => ⟨S_, .f32⟩
  | 28 => ⟨S1600000, .f32⟩
  | 29 => ⟨S_, .f32⟩
  | 30 => ⟨S100000, .f32⟩
  | 31 => ⟨S1600000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S1600000x1, .f32⟩
  | 73 => ⟨S1600000x128, .f32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S1600000, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .i1⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S_, .i32⟩
  | _ => ⟨S100000x3, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S1600000x1, .f32⟩
  | 9 => ⟨S1600000x128, .f32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S100000, .f32⟩
  | 16 => ⟨S100000x1, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .f32⟩
  | 27 => ⟨S256x128, .f32⟩
  | 28 => ⟨S100000x1, .i32⟩
  | 29 => ⟨S256x128, .f32⟩
  | 30 => ⟨S_, .f32⟩
  | 31 => ⟨S100000, .f32⟩
  | 32 => ⟨S_, .f32⟩
  | 33 => ⟨S256, .f32⟩
  | 34 => ⟨S100000x1, .i32⟩
  | 35 => ⟨S256, .f32⟩
  | 36 => ⟨S_, .f32⟩
  | 37 => ⟨S256, .f32⟩
  | 38 => ⟨S256, .f32⟩
  | 39 => ⟨S256x1, .f32⟩
  | 40 => ⟨S256x128, .f32⟩
  | 41 => ⟨S256x128, .f32⟩
  | 42 => ⟨S256x64, .f32⟩
  | 43 => ⟨S1x64, .f32⟩
  | 44 => ⟨S256x64, .f32⟩
  | 45 => ⟨S256x64, .f32⟩
  | 46 => ⟨S256x64, .f32⟩
  | 47 => ⟨S256x64, .f32⟩
  | 48 => ⟨S_, .f32⟩
  | 49 => ⟨S256x64, .f32⟩
  | 50 => ⟨S256x64, .f32⟩
  | 51 => ⟨S_, .f32⟩
  | 52 => ⟨S256x64, .f32⟩
  | 53 => ⟨S256x64, .f32⟩
  | 54 => ⟨S256x64, .f32⟩
  | 55 => ⟨S256x1, .f32⟩
  | 56 => ⟨S1x1, .f32⟩
  | 57 => ⟨S256x1, .f32⟩
  | 58 => ⟨S256x1, .f32⟩
  | 59 => ⟨S256, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call1_cst : Ref sig .tc := ⟨.hbm, 87, rfl⟩
abbrev main_call1_v0 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_16 : Ref sig .tc := ⟨.hbm, 104, rfl⟩
abbrev main_call2_v0 : Ref sig .tc := ⟨.hbm, 105, rfl⟩
abbrev main_call2_v1 : Ref sig .tc := ⟨.hbm, 106, rfl⟩
abbrev main_v69 : Ref sig .tc := ⟨.hbm, 107, rfl⟩
abbrev main_c_17 : Ref sig .tc := ⟨.hbm, 108, rfl⟩
abbrev main_v70 : Ref sig .tc := ⟨.hbm, 109, rfl⟩
abbrev main_v71 : Ref sig .tc := ⟨.hbm, 110, rfl⟩
abbrev main_c_18 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_19 : Ref sig .tc := ⟨.hbm, 117, rfl⟩
abbrev main_v77 : Ref sig .tc := ⟨.hbm, 118, rfl⟩
abbrev main_v78 : Ref sig .tc := ⟨.hbm, 119, rfl⟩
abbrev main_c_20 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_21 : Ref sig .tc := ⟨.hbm, 127, rfl⟩
abbrev main_v85 : Ref sig .tc := ⟨.hbm, 128, rfl⟩
abbrev main_v86 : Ref sig .tc := ⟨.hbm, 129, rfl⟩
abbrev main_c_22 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_23 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_call3_cst : Ref sig .tc := ⟨.hbm, 151, rfl⟩
abbrev main_call3_v0 : Ref sig .tc := ⟨.hbm, 152, rfl⟩
abbrev main_v106 : Ref sig .tc := ⟨.hbm, 153, rfl⟩
abbrev main_cst_24 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_25 : Ref sig .tc := ⟨.hbm, 158, rfl⟩
abbrev main_v110 : Ref sig .tc := ⟨.hbm, 159, rfl⟩
abbrev main_cst_26 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_27 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_call4_v0 : Ref sig .tc := ⟨.hbm, 174, rfl⟩
abbrev main_call4_v1 : Ref sig .tc := ⟨.hbm, 175, rfl⟩
abbrev main_call4_cst : Ref sig .tc := ⟨.hbm, 176, rfl⟩
abbrev main_call4_v2 : Ref sig .tc := ⟨.hbm, 177, rfl⟩
abbrev main_call4_v3 : Ref sig .tc := ⟨.hbm, 178, rfl⟩
abbrev main_call4_cst_0 : Ref sig .tc := ⟨.hbm, 179, rfl⟩
abbrev main_call4_v4 : Ref sig .tc := ⟨.hbm, 180, rfl⟩
abbrev main_call4_v5 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S100x128_S100000x1_S100000x128_1_0_n_n_0_1_1128_wf : GatherDims.WF S100x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.RunValue.lean ====
/-
  The kernel program's run with EVERY buffer read at the end: from any memory with zero counters, every weakly fair
  execution of @main terminates, nothing faulting, and each unscoped TensorCore buffer ends at the contents the
  fold of @main's twelve segments gives it (`W12`: a host stretch applies its operations, a region replaces its
  arrays by what its pipeline leaves). The frame statement keeps only the thirteen argument arrays of this; a value
  statement also reads the result array, so the run is stated here with the final reading left general.
-/
import proofs.«169915_j80625126081179_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run read at the result array and the thirteen arguments. -/
theorem run_result : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)
    (run_all m ρ)

end Cert.KernelIdeal.RunValue

end
-- ==== Proof.Spec.lean ====
/-
  The specification: a two-layer graph convolution network with mean pooling and a two-layer readout, as stage
  functions of whole arrays over the extended reals (or any float instance), each stage a composition of the
  host operations the reference program applies.

  Nodes carry 128 features. With `s`, `d : E → node` the edges' endpoints,
    deg(v)  = #{e | d e = v} + 1,                 dinv(v) = deg(v)^(-1/2) where deg(v) > 0, else 0,
    nrm(e)  = dinv(s e) · dinv(d e),
    conv(x) = relu( Σ_{e : d e = v} (x W)[s e] · nrm(e)  +  (x W)[v] · dinv(v)²  +  b ),
  the pooled mean of a graph divides the sum of its nodes' features by max(#nodes, 1), and the readout is
  `silu(p · Wr1 + br1) · Wr2 + br2` with `silu h = h · (1 / (1 + exp (−h)))`.

  The stages are cut where the kernel program's segments are cut: `mm` (a dense product), `agg` (the neighbour sum),
  `combine` (self loop, bias and relu), `pool` / `cnt`, `mlp` (the readout); `energy` composes them.
-/
import proofs.«169915_j80625126081179_1_alg».proof.Proof.Gen.ReferenceIdeal

noncomputable section

namespace Cert.Spec

open Idealize.ShloMosaic Cert.ReferenceIdeal Cert.ReferenceIdeal.Gen

variable {F : FTy → Type} [FloatOps F]

/-! ## Indices -/

/-- An edge endpoint wrapped the way array indexing wraps: a negative index counts from the end of the 100000 nodes;
    as a column of start indices. -/
def wrapNode (n : IVec S1600000 32) : IVec S1600000x1 32 :=
  broadcastInDim S1600000x1 ![0] bcast_S1600000_S1600000x1_0
    (select (cmpi .slt n (broadcastInDim S1600000 ![] bcast_S_S1600000 (constantI S_ 32 0#32)))
      (addi n (broadcastInDim S1600000 ![] bcast_S_S1600000 (constantI S_ 32 100000#32))) n)

/-- The edges' sources: row 0 of the edge table. -/
def src (ei : IVec S2x1600000 32) : IVec S1600000 32 :=
  shapeCast S1600000 (extractStridedSlice S1x1600000 ![0, 0] ei slices_S2x1600000_S1x1600000_0_0) shapeCasts_S1x1600000_S1600000

/-- The edges' targets: row 1 of the edge table. -/
def dst (ei : IVec S2x1600000 32) : IVec S1600000 32 :=
  shapeCast S1600000 (extractStridedSlice S1x1600000 ![1, 0] ei slices_S2x1600000_S1x1600000_1_0) shapeCasts_S1x1600000_S1600000

/-! ## The node embedding -/

/-- Row `z v` of the embedding table for every node `v` (an atomic number below zero counts from the end of the 100 rows). -/
def embed (emb : FVec F S100x128 .f32) (z : IVec S100000 32) : FVec F S100000x128 .f32 :=
  Host.gather gather_S100x128_S100000x1_S100000x128_1_0_n_n_0_1_1128 emb
    (broadcastInDim S100000x1 ![0] bcast_S100000_S100000x1_0
      (select (cmpi .slt z (broadcastInDim S100000 ![] bcast_S_S100000 (constantI S_ 32 0#32)))
        (addi z (broadcastInDim S100000 ![] bcast_S_S100000 (constantI S_ 32 100#32))) z))

/-! ## The graph's normalisation -/

/-- `deg v`: the number of edges into `v`, plus one for the self loop. -/
def deg (d : IVec S1600000 32) : FVec F S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- `dinv v = deg v ^ (-1/2)` where the degree is positive, `0` elsewhere. -/
def dinv (d : IVec S1600000 32) : FVec F S100000 .f32 :=
  select (cmpf .ogt (deg (F := F) d) (broadcastInDim S100000 ![] bcast_S_S100000 (constant S_ .f32 0x00000000#32)))
    (Host.rsqrt (deg (F := F) d))
    (broadcastInDim S100000 ![] bcast_S_S100000 (id (constant S_ .f32 0x00000000#32)))

/-- `dinv v ²`, the self loop's weight. -/
def dinvSq (d : IVec S1600000 32) : FVec F S100000 .f32 := mulf (dinv (F := F) d) (dinv (F := F) d)

/-- `nrm e = dinv (s e) · dinv (d e)`, the edge's weight. -/
def nrm (s d : IVec S1600000 32) : FVec F S1600000 .f32 :=
  mulf (Host.gather gather_S100000_S1600000x1_S1600000_n_0_n_n_0_1_1 (dinv (F := F) d) (wrapNode s))
    (Host.gather gather_S100000_S1600000x1_S1600000_n_0_n_n_0_1_1 (dinv (F := F) d) (wrapNode d))

/-- A vector over the edges as a column. -/
def edgeCol (x : FVec F S1600000 .f32) : FVec F S1600000x1 .f32 := broadcastInDim S1600000x1 ![0] bcast_S1600000_S1600000x1_0 x

/-- A vector over the nodes as a column. -/
def nodeCol (x : FVec F S100000 .f32) : FVec F S100000x1 .f32 := broadcastInDim S100000x1 ![0] bcast_S100000_S100000x1_0 x

/-! ## One convolution -/

/-- The dense product `x · W`. -/
def mm (x : FVec F S100000x128 .f32) (W : FVec F S128x128 .f32) : FVec F S100000x128 .f32 :=
  Host.dotGeneral dot_S100000x128_S128x128_S100000x128_1_0_0_1_n_n none x W

/-- The neighbour sum: row `v` is the sum over the edges `e` into `v` of row `s e` of `xw` times the edge's weight. -/
def agg (xw : FVec F S100000x128 .f32) (s d : IVec S1600000 32) (w : FVec F S1600000x1 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 xw (wrapNode s))
      (broadcastInDim S1600000x128 ![0, 1] bcast_S1600000x1_S1600000x128_0_1 w))

/-- Self loop, bias and relu: `max (a + xw · w + b, 0)`, the node's weight `w` a column, the bias a row. -/
def combine (a xw : FVec F S100000x128 .f32) (w : FVec F S100000x1 .f32) (b : FVec F S128 .f32) : FVec F S100000x128 .f32 :=
  maximumf
    (addf (addf a (mulf xw (broadcastInDim S100000x128 ![0, 1] bcast_S100000x1_S100000x128_0_1 w)))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- One graph convolution layer. -/
def conv (x : FVec F S100000x128 .f32) (W : FVec F S128x128 .f32) (b : FVec F S128 .f32) (s d : IVec S1600000 32) :
    FVec F S100000x128 .f32 :=
  combine (agg (mm x W) s d (edgeCol (nrm (F := F) s d))) (mm x W) (nodeCol (dinvSq (F := F) d)) b

/-! ## Pooling and the readout -/

/-- The sum of the node features of each of the 256 graphs. -/
def pool (h : FVec F S100000x128 .f32) (batch : IVec S100000 32) : FVec F S256x128 .f32 :=
  Host.scatterAdd scatter_S256x128_S100000x1_S100000x128_1_0_0_1
    (broadcastInDim S256x128 ![] bcast_S_S256x128 (constant S_ .f32 0x00000000#32))
    (broadcastInDim S100000x1 ![0] bcast_S100000_S100000x1_0 batch) h

/-- The number of nodes of each graph. -/
def cnt (batch : IVec S100000 32) : FVec F S256 .f32 :=
  Host.scatterAdd scatter_S256_S100000x1_S100000_n_0_0_1
    (broadcastInDim S256 ![] bcast_S_S256 (constant S_ .f32 0x00000000#32))
    (broadcastInDim S100000x1 ![0] bcast_S100000_S100000x1_0 batch)
    (broadcastInDim S100000 ![] bcast_S_S100000 (constant S_ .f32 0x3F800000#32))

/-- The readout of the pooled sums `p` given each graph's divisor `n` as a column:
    `silu ((p / n) · Wr1 + br1) · Wr2 + br2`, `silu h = h · (1 / (1 + exp (−h)))`. -/
def head (p : FVec F S256x128 .f32) (n : FVec F S256x1 .f32) (Wr1 : FVec F S128x64 .f32) (br1 : FVec F S64 .f32)
    (Wr2 : FVec F S64x1 .f32) (br2 : FVec F S1 .f32) : FVec F S256x1 .f32 :=
  let h : FVec F S256x64 .f32 :=
    addf (Host.dotGeneral dot_S256x128_S128x64_S256x64_1_0_0_1_n_n none
        (Host.divf p (broadcastInDim S256x128 ![0, 1] bcast_S256x1_S256x128_0_1 n)) Wr1)
      (broadcastInDim S256x64 ![0, 1] bcast_S1x64_S256x64_0_1 (broadcastInDim S1x64 ![1] bcast_S64_S1x64_1 br1))
  addf (Host.dotGeneral dot_S256x64_S64x1_S256x1_1_0_0_1_n_n none
      (mulf h (Host.divf (broadcastInDim S256x64 ![] bcast_S_S256x64 (constant S_ .f32 0x3F800000#32))
        (addf (broadcastInDim S256x64 ![] bcast_S_S256x64 (constant S_ .f32 0x3F800000#32)) (Host.exp (Host.negf h))))) Wr2)
    (broadcastInDim S256x1 ![0, 1] bcast_S1x1_S256x1_0_1 (broadcastInDim S1x1 ![1] bcast_S1_S1x1_1 br2))

/-- The readout as the kernel program reads it: from the raw node counts as a column, clamped below by one inside. -/
def mlp (p : FVec F S256x128 .f32) (ccol : FVec F S256x1 .f32) (Wr1 : FVec F S128x64 .f32) (br1 : FVec F S64 .f32)
    (Wr2 : FVec F S64x1 .f32) (br2 : FVec F S1 .f32) : FVec F S256x1 .f32 :=
  head p (maximumf ccol (broadcastInDim S256x1 ![] (by decide) (constant S_ .f32 0x3F800000#32))) Wr1 br1 Wr2 br2

/-- Each graph's divisor `max (#nodes, 1)`, as a column. -/
def divisor (batch : IVec S100000 32) : FVec F S256x1 .f32 :=
  broadcastInDim S256x1 ![0] bcast_S256_S256x1_0
    (maximumf (cnt (F := F) batch) (broadcastInDim S256 ![] bcast_S_S256 (constant S_ .f32 0x3F800000#32)))

/-- The network: embed, two convolutions, mean pooling, readout; one energy per graph. -/
def energy (z batch : IVec S100000 32) (ei : IVec S2x1600000 32) (emb : FVec F S100x128 .f32)
    (W1 : FVec F S128x128 .f32) (b1 : FVec F S128 .f32) (W2 : FVec F S128x128 .f32) (b2 : FVec F S128 .f32)
    (Wr1 : FVec F S128x64 .f32) (br1 : FVec F S64 .f32) (Wr2 : FVec F S64x1 .f32) (br2 : FVec F S1 .f32) : FVec F S256 .f32 :=
  shapeCast S256
    (head (pool (conv (conv (embed emb z) W1 b1 (src ei) (dst ei)) W2 b2 (src ei) (dst ei)) batch) (divisor (F := F) batch) Wr1 br1 Wr2 br2)
    shapeCasts_S256x1_S256

end Cert.Spec

end
-- ==== Proof.MatmulRegion.lean ====
/- The dense products: what the two matrix-product regions leave in their output arrays. -/
import proofs.«169915_j80625126081179_1_alg».proof.Proof.Spec
import proofs.«169915_j80625126081179_1_alg».proof.Proof.Gen.KernelIdeal.Frame
import Idealize.ShloMosaic.PureOps.Ideal
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.TcCoe Idealize.SL.Sem Cert.KernelIdeal Cert.KernelIdeal.Gen
open Idealize.ShloMosaic.Pipeline (Dat)

namespace Matmul

/-! ## The product, entry by entry

Entry (r, q) of a product X · W of a matrix of 128 columns with a 128 × 128 matrix is the sum over k of X (r, k) · W (k, q).
The body's value on a block of 5000 rows and the specification on the whole 100000 rows are both read in this form. -/

/-- Entry (row of j, k) of a block of 5000 rows. -/
abbrev blockEntry (j : S5000x128.Idx) (k : Fin 128) : S5000x128.Idx := fun a => match a with
  | ⟨0, _⟩ => ⟨(j 0).val, (j 0).isLt⟩
  | ⟨1, _⟩ => ⟨k.val, k.isLt⟩

/-- Entry (k, column of j) of the weights, for an entry j of a block. -/
abbrev blockWeight (j : S5000x128.Idx) (k : Fin 128) : S128x128.Idx := fun a => match a with
  | ⟨0, _⟩ => ⟨k.val, k.isLt⟩
  | ⟨1, _⟩ => ⟨(j 1).val, (j 1).isLt⟩

/-- Entry (row of i, k) of the whole array of 100000 rows. -/
abbrev arrayEntry (i : S100000x128.Idx) (k : Fin 128) : S100000x128.Idx := fun a => match a with
  | ⟨0, _⟩ => ⟨(i 0).val, (i 0).isLt⟩
  | ⟨1, _⟩ => ⟨k.val, k.isLt⟩

/-- Entry (k, column of i) of the weights, for an entry i of the whole array. -/
abbrev arrayWeight (i : S100000x128.Idx) (k : Fin 128) : S128x128.Idx := fun a => match a with
  | ⟨0, _⟩ => ⟨k.val, k.isLt⟩
  | ⟨1, _⟩ => ⟨(i 1).val, (i 1).isLt⟩

/-- The product of the whole arrays: entry i is the sum over k of X (row of i, k) · W (k, column of i). -/
def product (X : S100000x128.Idx → Elt Ideal .f32) (W : S128x128.Idx → Elt Ideal .f32) : S100000x128.Idx → Elt Ideal .f32 :=
  fun i => ∑ k : Fin 128, X (arrayEntry i k) * W (arrayWeight i k)

/-! ### The body's product of a block -/

theorem block_lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem block_lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q

theorem block_rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q

theorem block_rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at an entry of the block: rounding the operands to bf16 changes nothing over the extended
    reals and the accumulator starts at zero, so it is the sum over k of x (r, k) · w (k, q). -/
theorem payload_apply (x : Vec Ideal S5000x128 .f32) (w : Vec Ideal S128x128 .f32) (j : S5000x128.Idx) :
    k0_pay1 (F := Ideal) x w j = ∑ k : Fin 128, x (blockEntry j k) * w (blockWeight j k) := by
  unfold k0_pay1
  rw [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockEntry j k := funext fun a => Fin.ext (by
    match a with
    | ⟨0, _⟩ => exact block_lhs_row _ _
    | ⟨1, _⟩ => exact (block_lhs_col _ _).trans hk)
  have er : dot_S5000x128_S128x128_S5000x128_1_0_0_1_n_n.rhsIdx j ((ValueIdx.contrEquiv1 dot_S5000x128_S128x128_S5000x128_1_0_0_1_n_n 128 rfl rfl).symm k) = blockWeight j k := funext fun a => Fin.ext (by
    match a with
    | ⟨0, _⟩ => exact (block_rhs_row _ _).trans hk
    | ⟨1, _⟩ => exact block_rhs_col _ _)
  rw [el, er]
  rfl

/-- The second layer's body is the same function. -/
theorem payload2_eq (x : Vec Ideal S5000x128 .f32) (w : Vec Ideal S128x128 .f32) : k2_pay1 (F := Ideal) x w = k0_pay1 (F := Ideal) x w := rfl

/-! ## The specification's product -/

theorem array_lhs_row (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl

theorem array_lhs_col (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

theorem array_rhs_row (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

theorem array_rhs_col (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The specification's dense product is the same sum, entry by entry. -/
theorem spec_product (X : S100000x128.Idx → Elt Ideal .f32) (W : S128x128.Idx → Elt Ideal .f32) :
    Cert.Spec.mm (F := Ideal) X W = product X W := by
  funext i
  unfold Cert.Spec.mm product
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrayEntry i k := funext fun a => Fin.ext (by
    match a with
    | ⟨0, _⟩ => exact array_lhs_row _ _
    | ⟨1, _⟩ => exact (array_lhs_col _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrayWeight i k := funext fun a => Fin.ext (by
    match a with
    | ⟨0, _⟩ => exact (array_rhs_row _ _).trans hk
    | ⟨1, _⟩ => exact array_rhs_col _ _)
  rw [el, er]

/-! ## From the blocks to the array -/

theorem zero_offsets : (![0, 0] : Fin 2 → Nat) = fun _ => 0 := funext fun a => by fin_cases a <;> rfl

/-! ### The first layer's region -/

/-- The block indices over the grid: at point t the input rows and the output rows are block t, the weights are whole. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (product (V c main_v6) (V c main_arg5)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_index0 t
  funext j
  show k0_pay1 (iblk0 V c 0 t) (iblk0 V c 1 t) j = product (V c main_v6) (V c main_arg5) (((cfg0.win 2).blk t).view.emb j)
  refine (payload_apply _ _ j).trans ?_
  unfold product
  refine Finset.sum_congr rfl fun k _ => ?_
  have hj0 : (j 0).val < 5000 := (j 0).isLt
  have hj1 : (j 1).val < 128 := (j 1).isLt
  have hx : iblk0 V c 0 t (blockEntry j k) = V c main_v6 (arrayEntry (((cfg0.win 2).blk t).view.emb j) k) := by
    show V c main_v6 (((cfg0.win 0).blk t).view.emb (blockEntry j k)) = _
    refine congrArg _ ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (blockWeight j k) = V c main_arg5 (arrayWeight (((cfg0.win 2).blk t).view.emb j) k) := by
    show V c main_arg5 (((cfg0.win 1).blk t).view.emb (blockWeight j k)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An entry of the array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39).slice (win0_2.rect t)).set ↔ _
  rw [View.set_slice_whole, Rect.mem_set_unit]
  exact Iff.rfl

/-- Row r of the array is in the block of point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := block_index0 t
  have e4' : win0_2.index t (0 : Fin 2) = (i 0).val / 5000 := e4
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first layer's output array ends at the product. -/
theorem array0 (V : (c : Dev nD) → (b : Ref sig .tc) → Buf (Elt Ideal) ((c : Thread nD τ).loc b)) (c : Dev nD) :
    (dat0 (F := Ideal) V c).arrAt 2 cfg0.N = product (V c main_v6) (V c main_arg5) :=
  (dat0 V c).arrAt_eq_of_cover 2 (product (V c main_v6) (V c main_arg5)) (fun t _ => flushed0_eq V c t) cover0

/-! ### The second layer's region -/

/-- The block indices over the grid: at point t the input rows and the output rows are block t, the weights are whole. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (product (V c main_v52) (V c main_arg7)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := block_index2 t
  funext j
  show k2_pay1 (iblk2 V c 0 t) (iblk2 V c 1 t) j = product (V c main_v52) (V c main_arg7) (((cfg2.win 2).blk t).view.emb j)
  refine ((congrFun (payload2_eq _ _) j).trans (payload_apply _ _ j)).trans ?_
  unfold product
  refine Finset.sum_congr rfl fun k _ => ?_
  have hj0 : (j 0).val < 5000 := (j 0).isLt
  have hj1 : (j 1).val < 128 := (j 1).isLt
  have hx : iblk2 V c 0 t (blockEntry j k) = V c main_v52 (arrayEntry (((cfg2.win 2).blk t).view.emb j) k) := by
    show V c main_v52 (((cfg2.win 0).blk t).view.emb (blockEntry j k)) = _
    refine congrArg _ ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : iblk2 V c 1 t (blockWeight j k) = V c main_arg7 (arrayWeight (((cfg2.win 2).blk t).view.emb j) k) := by
    show V c main_arg7 (((cfg2.win 1).blk t).view.emb (blockWeight j k)) = _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An entry of the array is in point t's block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- Row r of the array is in the block of point r / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, e4, e5⟩ := block_index2 t
  have e4' : win2_2.index t (0 : Fin 2) = (i 0).val / 5000 := e4
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The second layer's output array ends at the product. -/
theorem array2 (V : (c : Dev nD) → (b : Ref sig .tc) → Buf (Elt Ideal) ((c : Thread nD τ).loc b)) (c : Dev nD) :
    (dat2 (F := Ideal) V c).arrAt 2 cfg2.N = product (V c main_v52) (V c main_arg7) :=
  (dat2 V c).arrAt_eq_of_cover 2 (product (V c main_v52) (V c main_arg7)) (fun t _ => flushed2_eq V c t) cover2

end Matmul

open Matmul

/-- Region 0: the output array ends at the whole product of the two input arrays as the region finds them. -/
theorem matmul0 (V : (c : Dev nD) → (b : Ref sig .tc) → Buf (Elt Ideal) ((c : Thread nD τ).loc b)) (c : Dev nD) :
    (dat0 (F := Ideal) V c).arrAt 2 cfg0.N = Cert.Spec.mm (F := Ideal) (V c main_v6) (V c main_arg5) :=
  (array0 V c).trans (spec_product (V c main_v6) (V c main_arg5)).symm

/-- Region 2: the same kernel on the second layer's arrays. -/
theorem matmul2 (V : (c : Dev nD) → (b : Ref sig .tc) → Buf (Elt Ideal) ((c : Thread nD τ).loc b)) (c : Dev nD) :
    (dat2 (F := Ideal) V c).arrAt 2 cfg2.N = Cert.Spec.mm (F := Ideal) (V c main_v52) (V c main_arg7) :=
  (array2 V c).trans (spec_product (V c main_v52) (V c main_arg7)).symm

end Cert.KernelIdeal.RegionValue

end
-- ==== Proof.CombineRegion.lean ====
/- Self loop, bias and relu: what the two combine regions leave in their output arrays. -/
import proofs.«169915_j80625126081179_1_alg».proof.Proof.Spec
import proofs.«169915_j80625126081179_1_alg».proof.Proof.Gen.KernelIdeal.Frame
import Idealize.ShloMosaic.PureOps.Ideal
import Idealize.ShloMosaic.Lib.Pipeline.Value
import Idealize.ShloMosaic.Lib.ValueLayout

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

namespace Combine

/-! ## A column and a row spread over a matrix, read at an index -/

section Layout
variable {α : Type}

/-- A column [a, 1] spread over [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column spread by a broadcast along both axes. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, b] spread over [a, b] by a broadcast along both axes reads, at (p, c), the row at column c. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] as a row [1, b] reads, at (u, c), the vector at c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A scalar spread over any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Layout

/-! ## The layer's last step as one function of whole arrays -/

/-- max (a + xw · w + b, 0) at every row and column: w the node's weight (a column), b the bias. -/
def reluRows (a xw : FVec Ideal S100000x128 .f32) (w : FVec Ideal S100000x1 .f32) (b : FVec Ideal S128 .f32) :
    FVec Ideal S100000x128 .f32 := fun i =>
  max (a i + xw i * w (ix2 (i 0 : Fin 100000) (0 : Fin 1)) + b (ix1 (i 1 : Fin 128))) (Ideal.ofBits .f32 0x00000000#32)

/-- The specification's combine, read index by index. -/
theorem spec_combine_eq (a xw : FVec Ideal S100000x128 .f32) (w : FVec Ideal S100000x1 .f32) (b : FVec Ideal S128 .f32) :
    Cert.Spec.combine (F := Ideal) a xw w b = reluRows a xw w b := by
  funext i
  obtain ⟨p, q, rfl⟩ : ∃ (p : Fin 100000) (q : Fin 128), i = ix2 p q := ⟨i 0, i 1, eq_ix2 i⟩
  unfold Cert.Spec.combine
  rw [maximumf_apply, addf_apply, addf_apply, mulf_apply, broadcastInDim_a1_ab_apply, broadcastInDim_1b_ab_apply,
    broadcastInDim_b_1b_apply, broadcastInDim_scalar_apply, constant_apply]
  rfl

/-- The body's payload at row y0, column y1 of its blocks. -/
theorem payload_apply (x0 x1 : Vec Ideal S5000x128 .f32) (x2 : Vec Ideal S5000x1 .f32) (x3 : Vec Ideal S128 .f32)
    (y0 : Fin 5000) (y1 : Fin 128) :
    k1_pay1 (F := Ideal) x0 x1 x2 x3 (ix2 y0 y1)
      = max (x0 (ix2 y0 y1) + x1 (ix2 y0 y1) * x2 (ix2 y0 (0 : Fin 1)) + x3 (ix1 y1)) (Ideal.ofBits .f32 0x00000000#32) := by
  unfold k1_pay1
  rw [maximumf_apply, addf_apply, addf_apply, mulf_apply, shapeCast_self, shapeCast_self, shapeCast_self,
    broadcastTo_a1_ab_apply, broadcastTo_1b_ab_apply, shapeCast_a_1a_apply, broadcast_apply]
  rfl

/-- The second layer's body is the same payload. -/
theorem payload3_eq : @k3_pay1 Ideal _ = @k1_pay1 Ideal _ := rfl

/-- The payload of blocks cut out of whole arrays is the block of reluRows: the two matrices' blocks and the
    column's block sit where the output's block sits (e0, e1, e2 against e4), the bias is read whole (e3). -/
theorem payload_blocks (A0 A1 : FVec Ideal S100000x128 .f32) (A2 : FVec Ideal S100000x1 .f32) (A3 : FVec Ideal S128 .f32)
    (e0 e1 e4 : S5000x128.Idx → S100000x128.Idx) (e2 : S5000x1.Idx → S100000x1.Idx) (e3 : S128.Idx → S128.Idx)
    (h0 : ∀ y, e0 y = e4 y) (h1 : ∀ y, e1 y = e4 y)
    (h2 : ∀ (y0 : Fin 5000) (y1 : Fin 128), (e2 (ix2 y0 (0 : Fin 1)) 0).val = (e4 (ix2 y0 y1) 0).val)
    (h3 : ∀ (y0 : Fin 5000) (y1 : Fin 128), (e3 (ix1 y1) 0).val = (e4 (ix2 y0 y1) 1).val) (y : S5000x128.Idx) :
    k1_pay1 (F := Ideal) (fun y => A0 (e0 y)) (fun y => A1 (e1 y)) (fun y => A2 (e2 y)) (fun y => A3 (e3 y)) y
      = reluRows A0 A1 A2 A3 (e4 y) := by
  obtain ⟨y0, y1, rfl⟩ : ∃ (y0 : Fin 5000) (y1 : Fin 128), y = ix2 y0 y1 := ⟨y 0, y 1, eq_ix2 y⟩
  have k2 : e2 (ix2 y0 (0 : Fin 1)) = ix2 (e4 (ix2 y0 y1) 0 : Fin 100000) (0 : Fin 1) := by
    funext a; apply Fin.ext
    match a with
    | ⟨0, _⟩ => exact h2 y0 y1
    | ⟨1, _⟩ =>
      have hlt : (e2 (ix2 y0 (0 : Fin 1)) 1).val < 1 := idx2_lt1 _
      show (e2 (ix2 y0 (0 : Fin 1)) 1).val = 0
      omega
  have k3 : e3 (ix1 y1) = ix1 (e4 (ix2 y0 y1) 1 : Fin 128) := by
    funext a
    match a with
    | ⟨0, _⟩ => exact Fin.ext (h3 y0 y1)
  rw [payload_apply, h0, h1, k2, k3]
  rfl

/-! ## From blocks to the array -/

theorem zeros2 : (![0, 0] : Fin 2 → Nat) = fun _ => 0 := funext fun a => by fin_cases a <;> rfl
theorem zeros1 : (![0] : Fin 1 → Nat) = fun _ => 0 := funext fun a => by fin_cases a <;> rfl

/-! ## Region 1: from blocks to the array -/

/-- The block index maps over the grid of 20 points: the two matrices, the column and the output take block t along
    the rows; the bias is whole at every point. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is block t of reluRows of the arrays as the region finds them. -/
theorem flushed1_eq (V : (c : Dev nD) → (b : Ref sig .tc) → Buf (Elt Ideal) ((c : Thread nD τ).loc b)) (c : Dev nD)
    (t : Fin cfg1.N) :
    (dat1 (F := Ideal) V c).flushed 4 t = ((cfg1.win 4).blk t).view.read (Elt Ideal)
      (reluRows (V c main_v51) (V c main_v39) (V c main_v22) (V c main_arg6)) := by
  show (cfg1.win 4).cut (grid1.coords t) ((dat1 (F := Ideal) V c).after 4 t) = _
  rw [after1_4]
  unfold out1_4
  rw [View.canon_unit_zero zeros2]
  simp only [View.ld_unit_zero (S := S5000x128) zeros2, View.ld_unit_zero (S := S5000x1) zeros2,
    View.ld_unit_zero (S := S128) zeros1]
  obtain ⟨a0, a1, b0, b1, c0, c1, d0, e0, e1⟩ := blockIdx1 t
  funext j
  refine payload_blocks (V c main_v51) (V c main_v39) (V c main_v22) (V c main_arg6)
    ((cfg1.win 0).blk t).view.emb ((cfg1.win 1).blk t).view.emb ((cfg1.win 4).blk t).view.emb
    ((cfg1.win 2).blk t).view.emb ((cfg1.win 3).blk t).view.emb ?_ ?_ ?_ ?_ j
  · intro y; funext a; apply Fin.ext
    match a with
    | ⟨0, _⟩ =>
      show win1_0.index t (0 : Fin 2) * 5000 + 1 * (y 0).val = win1_4.index t (0 : Fin 2) * 5000 + 1 * (y 0).val
      omega
    | ⟨1, _⟩ =>
      show win1_0.index t (1 : Fin 2) * 128 + 1 * (y 1).val = win1_4.index t (1 : Fin 2) * 128 + 1 * (y 1).val
      omega
  · intro y; funext a; apply Fin.ext
    match a with
    | ⟨0, _⟩ =>
      show win1_1.index t (0 : Fin 2) * 5000 + 1 * (y 0).val = win1_4.index t (0 : Fin 2) * 5000 + 1 * (y 0).val
      omega
    | ⟨1, _⟩ =>
      show win1_1.index t (1 : Fin 2) * 128 + 1 * (y 1).val = win1_4.index t (1 : Fin 2) * 128 + 1 * (y 1).val
      omega
  · intro y0 y1
    show win1_2.index t (0 : Fin 2) * 5000 + 1 * y0.val = win1_4.index t (0 : Fin 2) * 5000 + 1 * y0.val
    omega
  · intro y0 y1
    show win1_3.index t (0 : Fin 1) * 128 + 1 * y1.val = win1_4.index t (1 : Fin 2) * 128 + 1 * y1.val
    omega

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v52).slice (win1_4.rect t)).set ↔ _
  rw [View.set_slice_whole, Rect.mem_set_unit]
  exact Iff.rfl

/-- Row r of the output array is in the block of point r / 5000: the 20 blocks of 5000 rows fill the array. -/
theorem cover1 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, e0, e1⟩ := blockIdx1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-! ## Region 3: from blocks to the array -/

/-- The block index maps over the grid of 20 points: the two matrices, the column and the output take block t along
    the rows; the bias is whole at every point. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point t writes back is block t of reluRows of the arrays as the region finds them. -/
theorem flushed3_eq (V : (c : Dev nD) → (b : Ref sig .tc) → Buf (Elt Ideal) ((c : Thread nD τ).loc b)) (c : Dev nD)
    (t : Fin cfg3.N) :
    (dat3 (F := Ideal) V c).flushed 4 t = ((cfg3.win 4).blk t).view.read (Elt Ideal)
      (reluRows (V c main_v65) (V c main_v53) (V c main_v22) (V c main_arg8)) := by
  show (cfg3.win 4).cut (grid3.coords t) ((dat3 (F := Ideal) V c).after 4 t) = _
  rw [after3_4]
  unfold out3_4
  rw [View.canon_unit_zero zeros2]
  simp only [View.ld_unit_zero (S := S5000x128) zeros2, View.ld_unit_zero (S := S5000x1) zeros2,
    View.ld_unit_zero (S := S128) zeros1]
  obtain ⟨a0, a1, b0, b1, c0, c1, d0, e0, e1⟩ := blockIdx3 t
  funext j
  rw [payload3_eq]
  refine payload_blocks (V c main_v65) (V c main_v53) (V c main_v22) (V c main_arg8)
    ((cfg3.win 0).blk t).view.emb ((cfg3.win 1).blk t).view.emb ((cfg3.win 4).blk t).view.emb
    ((cfg3.win 2).blk t).view.emb ((cfg3.win 3).blk t).view.emb ?_ ?_ ?_ ?_ j
  · intro y; funext a; apply Fin.ext
    match a with
    | ⟨0, _⟩ =>
      show win3_0.index t (0 : Fin 2) * 5000 + 1 * (y 0).val = win3_4.index t (0 : Fin 2) * 5000 + 1 * (y 0).val
      omega
    | ⟨1, _⟩ =>
      show win3_0.index t (1 : Fin 2) * 128 + 1 * (y 1).val = win3_4.index t (1 : Fin 2) * 128 + 1 * (y 1).val
      omega
  · intro y; funext a; apply Fin.ext
    match a with
    | ⟨0, _⟩ =>
      show win3_1.index t (0 : Fin 2) * 5000 + 1 * (y 0).val = win3_4.index t (0 : Fin 2) * 5000 + 1 * (y 0).val
      omega
    | ⟨1, _⟩ =>
      show win3_1.index t (1 : Fin 2) * 128 + 1 * (y 1).val = win3_4.index t (1 : Fin 2) * 128 + 1 * (y 1).val
      omega
  · intro y0 y1
    show win3_2.index t (0 : Fin 2) * 5000 + 1 * y0.val = win3_4.index t (0 : Fin 2) * 5000 + 1 * y0.val
    omega
  · intro y0 y1
    show win3_3.index t (0 : Fin 1) * 128 + 1 * y1.val = win3_4.index t (1 : Fin 2) * 128 + 1 * y1.val
    omega

/-- An index of the output array is in point t's block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v66).slice (win3_4.rect t)).set ↔ _
  rw [View.set_slice_whole, Rect.mem_set_unit]
  exact Iff.rfl

/-- Row r of the output array is in the block of point r / 5000: the 20 blocks of 5000 rows fill the array. -/
theorem cover3 (i : S100000x128.Idx) :
    ∃ t : Fin cfg3.N, (cfg3.win 4).flush t = true ∧ i ∈ ((cfg3.win 4).blk t).view.set := by
  have hi0 : (i 0).val < 100000 := idx2_lt0 i
  have hi1 : (i 1).val < 128 := idx2_lt1 i
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, e0, e1⟩ := blockIdx3 t
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

end Combine

open Combine

/-- Region 1. -/
theorem combine1 (V : (c : Dev nD) → (b : Ref sig .tc) → Buf (Elt Ideal) ((c : Thread nD τ).loc b)) (c : Dev nD) :
    (dat1 (F := Ideal) V c).arrAt 4 cfg1.N
      = Cert.Spec.combine (F := Ideal) (V c main_v51) (V c main_v39) (V c main_v22) (V c main_arg6) := by
  refine Eq.trans ?_ (spec_combine_eq _ _ _ _).symm
  exact (dat1 (F := Ideal) V c).arrAt_eq_of_cover 4 _ (fun t _ => flushed1_eq V c t) cover1

/-- Region 3: the same kernel on the second layer's arrays. -/
theorem combine3 (V : (c : Dev nD) → (b : Ref sig .tc) → Buf (Elt Ideal) ((c : Thread nD τ).loc b)) (c : Dev nD) :
    (dat3 (F := Ideal) V c).arrAt 4 cfg3.N
      = Cert.Spec.combine (F := Ideal) (V c main_v65) (V c main_v53) (V c main_v22) (V c main_arg8) := by
  refine Eq.trans ?_ (spec_combine_eq _ _ _ _).symm
  exact (dat3 (F := Ideal) V c).arrAt_eq_of_cover 4 _ (fun t _ => flushed3_eq V c t) cover3

end Cert.KernelIdeal.RegionValue

end
-- ==== Proof.ReadoutRegion.lean ====
/- The readout: what the last region leaves in its output array.

   The region has one grid point and every window's block is its whole array, so the output array ends holding the
   body's payload of the six input arrays; and index by index that payload is the specification's readout
   `silu ((p / max (n, 1)) · Wr1 + br1) · Wr2 + br2`: the two products into a zero accumulator are the host's
   contractions (the same sum over the contracted axis), the logistic function is `1 / (1 + exp (−h))`, and the
   broadcasts read the same elements. -/
import proofs.«169915_j80625126081179_1_alg».proof.Proof.Spec
import proofs.«169915_j80625126081179_1_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Cert.KernelIdeal.RegionValue

open Idealize.ShloMosaic Idealize.ShloMosaic.TcCoe Idealize.SL.Sem Cert.KernelIdeal Cert.KernelIdeal.Gen

namespace Readout

open Idealize.ShloMosaic.Pipeline (Dat)
open Idealize.ShloMosaic.ValueIdx

/-! ## The payload is the readout -/

/-- The pooled sums over the clamped counts: the kernel's broadcast of the count column along the features reads the
    same element as the reference's, `max (n r, 1)` at row `r`. -/
theorem mean_eq (p : FVec Ideal S256x128 .f32) (n : FVec Ideal S256x1 .f32) :
    divf (shapeCast S256x128 p shapeCasts_S256x128_S256x128)
        (broadcastTo S256x128 (maximumf (shapeCast S256x1 n shapeCasts_S256x1_S256x1) (broadcast S256x1 (Scalar.ofBits .f32 0x3F800000#32))) broadcasts_S256x1_S256x128)
      = Host.divf (F := Ideal) p (broadcastInDim S256x128 ![0, 1] Cert.ReferenceIdeal.Gen.bcast_S256x1_S256x128_0_1
          (maximumf n (broadcastInDim S256x1 ![] (by decide) (constant (F := Ideal) S_ .f32 0x3F800000#32)))) := by
  rw [shapeCast_self, shapeCast_self]
  funext j
  obtain ⟨r, q, rfl⟩ : ∃ (r : Fin 256) (q : Fin 128), j = ix2 r q := ⟨j 0, j 1, eq_ix2 j⟩
  refine congrArg (Ideal.div (p (ix2 r q))) ?_
  refine (broadcastTo_apply _ broadcasts_S256x1_S256x128 (ix2 r q) (ix2 r (0 : Fin 1)) fun a => ?_).trans
    (Eq.trans ?_ (broadcastInDim_apply _ Cert.ReferenceIdeal.Gen.bcast_S256x1_S256x128_0_1 _ (ix2 r q) (ix2 r (0 : Fin 1)) fun a => ?_).symm)
  · match a with
    | ⟨0, _⟩ => show r.val = if (256 : Nat) = 1 then 0 else r.val; rw [if_neg (by decide)]
    | ⟨1, _⟩ => show 0 = if (1 : Nat) = 1 then 0 else q.val; rw [if_pos rfl]
  · rfl
  · match a with
    | ⟨0, _⟩ => show r.val = if (256 : Nat) = 1 then 0 else r.val; rw [if_neg (by decide)]
    | ⟨1, _⟩ => show 0 = if (1 : Nat) = 1 then 0 else q.val; rw [if_pos rfl]

/-- A [256,128] by [128,64] product into a zero accumulator is the host's contraction: the same sum over the
    contracted axis (the narrowing of the operands is the identity on extended reals). -/
theorem matmul_eq_dot1 (x : FVec Ideal S256x128 .f32) (y : FVec Ideal S128x64 .f32) :
    matmul dot_S256x128_S128x64_S256x64_1_0_0_1_n_n none (truncf .bf16 x bitsLt_bf16_f32) (truncf .bf16 y bitsLt_bf16_f32) (constant S256x64 .f32 0x00000000#32)
      = Host.dotGeneral (F := Ideal) Cert.ReferenceIdeal.dot_S256x128_S128x64_S256x64_1_0_0_1_n_n none x y := by
  funext j
  simp only [matmul, Host.dotGeneral]
  rw [Ideal.matmul_constant_zero_apply, Ideal.dotGeneral_apply]
  rfl

/-- The same for the [256,64] by [64,1] product. -/
theorem matmul_eq_dot2 (x : FVec Ideal S256x64 .f32) (y : FVec Ideal S64x1 .f32) :
    matmul dot_S256x64_S64x1_S256x1_1_0_0_1_n_n none (truncf .bf16 x bitsLt_bf16_f32) (truncf .bf16 y bitsLt_bf16_f32) (constant S256x1 .f32 0x00000000#32)
      = Host.dotGeneral (F := Ideal) Cert.ReferenceIdeal.dot_S256x64_S64x1_S256x1_1_0_0_1_n_n none x y := by
  funext j
  simp only [matmul, Host.dotGeneral]
  rw [Ideal.matmul_constant_zero_apply, Ideal.dotGeneral_apply]
  rfl

/-- `h · logistic h` is `h · (1 / (1 + exp (−h)))`, the word of one being the extended real one. -/
theorem silu_eq (h : FVec Ideal S256x64 .f32) :
    mulf h (logistic h) = mulf h (Host.divf (F := Ideal) (broadcastInDim S256x64 ![] Cert.ReferenceIdeal.Gen.bcast_S_S256x64 (constant (F := Ideal) S_ .f32 0x3F800000#32))
        (addf (broadcastInDim S256x64 ![] Cert.ReferenceIdeal.Gen.bcast_S_S256x64 (constant (F := Ideal) S_ .f32 0x3F800000#32)) (Host.exp (Host.negf h)))) := by
  funext j
  show h j * Ideal.div 1 (1 + Ideal.exp (-(h j))) = h j * Ideal.div (Ideal.ofBits .f32 0x3F800000#32) (Ideal.ofBits .f32 0x3F800000#32 + Ideal.exp (-(h j)))
  rw [Ideal.ofBits_one_f32]

/-- The first bias as a row under every graph: both spellings read `b q` at `(r, q)`. -/
theorem bias1_eq (b : FVec Ideal S64 .f32) :
    broadcastTo S256x64 (shapeCast S1x64 b shapeCasts_S64_S1x64) broadcasts_S1x64_S256x64
      = broadcastInDim S256x64 ![0, 1] Cert.ReferenceIdeal.Gen.bcast_S1x64_S256x64_0_1 (broadcastInDim S1x64 ![1] Cert.ReferenceIdeal.Gen.bcast_S64_S1x64_1 b) := by
  funext j
  obtain ⟨r, q, rfl⟩ : ∃ (r : Fin 256) (q : Fin 64), j = ix2 r q := ⟨j 0, j 1, eq_ix2 j⟩
  refine ((broadcastTo_1b_ab_apply _ broadcasts_S1x64_S256x64 r q).trans (shapeCast_a_1a_apply b shapeCasts_S64_S1x64 0 q)).trans
    (((broadcastInDim_apply _ Cert.ReferenceIdeal.Gen.bcast_S1x64_S256x64_0_1 _ (ix2 r q) (ix2 (0 : Fin 1) q) fun a => ?_).trans
      (broadcastInDim_apply _ Cert.ReferenceIdeal.Gen.bcast_S64_S1x64_1 b (ix2 (0 : Fin 1) q) (ix1 q) fun a => ?_)).symm)
  · match a with
    | ⟨0, _⟩ => show 0 = if (1 : Nat) = 1 then 0 else r.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- The second bias, one number, under every graph. -/
theorem bias2_eq (b : FVec Ideal S1 .f32) :
    broadcastTo S256x1 (shapeCast S1x1 b shapeCasts_S1_S1x1) broadcasts_S1x1_S256x1
      = broadcastInDim S256x1 ![0, 1] Cert.ReferenceIdeal.Gen.bcast_S1x1_S256x1_0_1 (broadcastInDim S1x1 ![1] Cert.ReferenceIdeal.Gen.bcast_S1_S1x1_1 b) := by
  funext j
  obtain ⟨r, q, rfl⟩ : ∃ (r : Fin 256) (q : Fin 1), j = ix2 r q := ⟨j 0, j 1, eq_ix2 j⟩
  obtain rfl : q = 0 := Subsingleton.elim _ _
  refine ((broadcastTo_1b_ab_apply _ broadcasts_S1x1_S256x1 r 0).trans (shapeCast_a_1a_apply b shapeCasts_S1_S1x1 0 0)).trans
    (((broadcastInDim_apply _ Cert.ReferenceIdeal.Gen.bcast_S1x1_S256x1_0_1 _ (ix2 r (0 : Fin 1)) (ix2 (0 : Fin 1) (0 : Fin 1)) fun a => ?_).trans
      (broadcastInDim_apply _ Cert.ReferenceIdeal.Gen.bcast_S1_S1x1_1 b (ix2 (0 : Fin 1) (0 : Fin 1)) (ix1 (0 : Fin 1)) fun a => ?_)).symm)
  · match a with
    | ⟨0, _⟩ => show 0 = if (1 : Nat) = 1 then 0 else r.val; rw [if_pos rfl]
    | ⟨1, _⟩ => show 0 = if (1 : Nat) = 1 then 0 else 0; rw [if_pos rfl]
  · match a with
    | ⟨0, _⟩ => show 0 = if (1 : Nat) = 1 then 0 else 0; rw [if_pos rfl]

/-- The body's payload is the readout of its six arrays: stage by stage the same function. -/
theorem payload_eq_mlp (p : FVec Ideal S256x128 .f32) (n : FVec Ideal S256x1 .f32) (w1 : FVec Ideal S128x64 .f32) (b1 : FVec Ideal S64 .f32)
    (w2 : FVec Ideal S64x1 .f32) (b2 : FVec Ideal S1 .f32) :
    k4_pay1 p n w1 b1 w2 b2 = Cert.Spec.mlp (F := Ideal) p n w1 b1 w2 b2 := by
  unfold k4_pay1 Cert.Spec.mlp Cert.Spec.head
  dsimp only
  rw [mean_eq, matmul_eq_dot1, bias1_eq, silu_eq, matmul_eq_dot2, bias2_eq]

/-! ## The output array is the payload of the whole input arrays -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- What the point writes back: the payload of the six input blocks (the body loads each block whole and stores the
    payload over the whole output block). -/
theorem written_back (V : (c : Dev nD) → (b : Ref sig .tc) → Buf (Elt Ideal) ((c : Thread nD τ).loc b)) (c : Dev nD) (t : Fin cfg4.N) :
    (dat4 (F := Ideal) V c).flushed 6 t = (cfg4.win 6).cut (grid4.coords t) (k4_pay1 (iblk4 V c 0 t) (iblk4 V c 1 t) (iblk4 V c 2 t) (iblk4 V c 3 t) (iblk4 V c 4 t) (iblk4 V c 5 t)) := by
  show (cfg4.win 6).cut (grid4.coords t) ((dat4 V c).after 6 t) = _
  rw [after4_6]
  unfold out4_6
  rw [View.canon_unit_zero zero_offsets2]
  simp only [View.ld_unit_zero (S := S256x128) zero_offsets2, View.ld_unit_zero (S := S256x1) zero_offsets2, View.ld_unit_zero (S := S128x64) zero_offsets2, View.ld_unit_zero (S := S64x1) zero_offsets2, View.ld_unit_zero (S := S64) zero_offsets1, View.ld_unit_zero (S := S1) zero_offsets1]

/-- Window 0's block at the one point is its whole array (the pooled sums): the block index is zero on every axis. -/
theorem whole_block0 (V : (c : Dev nD) → (b : Ref sig .tc) → Buf (Elt Ideal) ((c : Thread nD τ).loc b)) (c : Dev nD) (t : Fin cfg4.N) :
    iblk4 (F := Ideal) V c 0 t = V c main_v70 := by
  obtain rfl := fin_N4 t
  unfold iblk4
  have hz' : (fun a => win4_0.index t4_0 a * main_v70.ty.shape.size a) = fun _ => 0 := funext fun a => by fin_cases a <;> decide
  exact Memref.read_access_unit_zero (Elt Ideal) main_v70 hz' (fun a => by rw [congrFun hz' a]; simp) (V c main_v70)

/-- Window 1's block at the one point is its whole array (the node counts): the block index is zero on every axis. -/
theorem whole_block1 (V : (c : Dev nD) → (b : Ref sig .tc) → Buf (Elt Ideal) ((c : Thread nD τ).loc b)) (c : Dev nD) (t : Fin cfg4.N) :
    iblk4 (F := Ideal) V c 1 t = V c main_v74 := by
  obtain rfl := fin_N4 t
  unfold iblk4
  have hz' : (fun a => win4_1.index t4_0 a * main_v74.ty.shape.size a) = fun _ => 0 := funext fun a => by fin_cases a <;> decide
  exact Memref.read_access_unit_zero (Elt Ideal) main_v74 hz' (fun a => by rw [congrFun hz' a]; simp) (V c main_v74)

/-- Window 2's block at the one point is its whole array (the first weight matrix): the block index is zero on every axis. -/
theorem whole_block2 (V : (c : Dev nD) → (b : Ref sig .tc) → Buf (Elt Ideal) ((c : Thread nD τ).loc b)) (c : Dev nD) (t : Fin cfg4.N) :
    iblk4 (F := Ideal) V c 2 t = V c main_arg9 := by
  obtain rfl := fin_N4 t
  unfold iblk4
  have hz' : (fun a => win4_2.index t4_0 a * main_arg9.ty.shape.size a) = fun _ => 0 := funext fun a => by fin_cases a <;> decide
  exact Memref.read_access_unit_zero (Elt Ideal) main_arg9 hz' (fun a => by rw [congrFun hz' a]; simp) (V c main_arg9)

/-- Window 3's block at the one point is its whole array (the first bias): the block index is zero on every axis. -/
theorem whole_block3 (V : (c : Dev nD) → (b : Ref sig .tc) → Buf (Elt Ideal) ((c : Thread nD τ).loc b)) (c : Dev nD) (t : Fin cfg4.N) :
    iblk4 (F := Ideal) V c 3 t = V c main_arg10 := by
  obtain rfl := fin_N4 t
  unfold iblk4
  have hz' : (fun a => win4_3.index t4_0 a * main_arg10.ty.shape.size a) = fun _ => 0 := funext fun a => by fin_cases a <;> decide
  exact Memref.read_access_unit_zero (Elt Ideal) main_arg10 hz' (fun a => by rw [congrFun hz' a]; simp) (V c main_arg10)

/-- Window 4's block at the one point is its whole array (the second weight matrix): the block index is zero on every axis. -/
theorem whole_block4 (V : (c : Dev nD) → (b : Ref sig .tc) → Buf (Elt Ideal) ((c : Thread nD τ).loc b)) (c : Dev nD) (t : Fin cfg4.N) :
    iblk4 (F := Ideal) V c 4 t = V c main_arg11 := by
  obtain rfl := fin_N4 t
  unfold iblk4
  have hz' : (fun a => win4_4.index t4_0 a * main_arg11.ty.shape.size a) = fun _ => 0 := funext fun a => by fin_cases a <;> decide
  exact Memref.read_access_unit_zero (Elt Ideal) main_arg11 hz' (fun a => by rw [congrFun hz' a]; simp) (V c main_arg11)

/-- Window 5's block at the one point is its whole array (the second bias): the block index is zero on every axis. -/
theorem whole_block5 (V : (c : Dev nD) → (b : Ref sig .tc) → Buf (Elt Ideal) ((c : Thread nD τ).loc b)) (c : Dev nD) (t : Fin cfg4.N) :
    iblk4 (F := Ideal) V c 5 t = V c main_arg12 := by
  obtain rfl := fin_N4 t
  unfold iblk4
  have hz' : (fun a => win4_5.index t4_0 a * main_arg12.ty.shape.size a) = fun _ => 0 := funext fun a => by fin_cases a <;> decide
  exact Memref.read_access_unit_zero (Elt Ideal) main_arg12 hz' (fun a => by rw [congrFun hz' a]; simp) (V c main_arg12)

/-- So the point writes back the block of the payload of the whole arrays (the output's block is its whole array too). -/
theorem written_back_whole (V : (c : Dev nD) → (b : Ref sig .tc) → Buf (Elt Ideal) ((c : Thread nD τ).loc b)) (c : Dev nD) (t : Fin cfg4.N) :
    (dat4 (F := Ideal) V c).flushed 6 t = ((cfg4.win 6).blk t).view.read (Elt Ideal)
      (k4_pay1 (V c main_v70) (V c main_v74) (V c main_arg9) (V c main_arg10) (V c main_arg11) (V c main_arg12)) := by
  rw [written_back, whole_block0, whole_block1, whole_block2, whole_block3, whole_block4, whole_block5]
  obtain rfl := fin_N4 t
  have hz' : (fun a => win4_6.index t4_0 a * main_v75.ty.shape.size a) = fun _ => 0 := funext fun a => by fin_cases a <;> decide
  exact (Memref.read_access_unit_zero (Elt Ideal) main_v75 hz' (fun a => by rw [congrFun hz' a]; simp) _).symm

/-- The output array after the region: the payload of the six arrays as the region finds them (the one point's block
    covers every index). -/
theorem output_eq_payload (V : (c : Dev nD) → (b : Ref sig .tc) → Buf (Elt Ideal) ((c : Thread nD τ).loc b)) (c : Dev nD) :
    (dat4 (F := Ideal) V c).arrAt 6 cfg4.N
      = k4_pay1 (V c main_v70) (V c main_v74) (V c main_arg9) (V c main_arg10) (V c main_arg11) (V c main_arg12) :=
  (dat4 (F := Ideal) V c).arrAt_eq_of_cover 6 _ (fun t _ => written_back_whole V c t) fun i =>
    ⟨t4_0, flush4_6 t4_0, by
      show i ∈ ((View.whole main_v75).slice (win4_6.rect t4_0)).set
      rw [View.set_slice_whole, Rect.mem_set_unit]
      intro a
      have h0 : (i 0 : Nat) < 256 := (i 0).isLt
      have h1 : (i 1 : Nat) < 1 := (i 1).isLt
      match a with
      | ⟨0, _⟩ => show win4_6.index t4_0 0 * win4_6.size 0 ≤ (i 0 : Nat) ∧ (i 0 : Nat) < win4_6.index t4_0 0 * win4_6.size 0 + win4_6.xsize (grid4.coords t4_0) 0
                  rw [show win4_6.index t4_0 0 * win4_6.size 0 = 0 from by decide +kernel, show win4_6.xsize (grid4.coords t4_0) 0 = 256 from by decide +kernel]; omega
      | ⟨1, _⟩ => show win4_6.index t4_0 1 * win4_6.size 1 ≤ (i 1 : Nat) ∧ (i 1 : Nat) < win4_6.index t4_0 1 * win4_6.size 1 + win4_6.xsize (grid4.coords t4_0) 1
                  rw [show win4_6.index t4_0 1 * win4_6.size 1 = 0 from by decide +kernel, show win4_6.xsize (grid4.coords t4_0) 1 = 1 from by decide +kernel]; omega⟩

end Readout

/-- Region 4 (one grid point): the output column is the readout of the pooled sums and the node counts. -/
theorem readout4 (V : (c : Dev nD) → (b : Ref sig .tc) → Buf (Elt Ideal) ((c : Thread nD τ).loc b)) (c : Dev nD) :
    (dat4 (F := Ideal) V c).arrAt 6 cfg4.N
      = Cert.Spec.mlp (F := Ideal) (V c main_v70) (V c main_v74) (V c main_arg9) (V c main_arg10) (V c main_arg11) (V c main_arg12) :=
  (Readout.output_eq_payload V c).trans (Readout.payload_eq_mlp _ _ _ _ _ _)

end Cert.KernelIdeal.RegionValue

end
-- ==== Proof.Walk.lean ====
/-
  The kernel program's result array, read through @main's twelve segments.

  @main is: host operations (the embedding rows, the edge endpoints, the degrees and the two normalisations), a
  matrix-product region, host operations (the neighbour sum), a combine region, a matrix-product region, host
  operations (the neighbour sum again), a combine region, host operations (pooling and the node counts), the
  readout region, and a last reshape. `Gen.W0 … Gen.W12` are the buffer contents at the segment boundaries. Here
  each buffer that a later segment reads is followed boundary by boundary: a host stretch applies its operations to
  the contents before it, a region replaces its output array by the region's whole-array function of its input
  arrays and leaves every other buffer alone. The values met on the way are named (`x0`, `xw1`, `a1`, `h1`, …); the
  last lemma reads the result array at the last boundary as the last of them.
-/
import proofs.«169915_j80625126081179_1_alg».proof.Proof.Spec
import proofs.«169915_j80625126081179_1_alg».proof.Proof.Gen.KernelIdeal.Frame
import proofs.«169915_j80625126081179_1_alg».proof.Proof.MatmulRegion
import proofs.«169915_j80625126081179_1_alg».proof.Proof.CombineRegion
import proofs.«169915_j80625126081179_1_alg».proof.Proof.ReadoutRegion
import Idealize.ShloMosaic.Lib.StableHlo.Run
import Idealize.ShloMosaic.PureOps.Ideal

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg) (c : Dev nD)

/-! ## The values along the way, as functions of the argument arrays -/

/-- The embedded node features. -/
def x0 : FVec Ideal S100000x128 .f32 := Cert.Spec.embed (F := Ideal) (m ((c : Thread nD τ).loc main_arg4)) (m ((c : Thread nD τ).loc main_arg1))
/-- The edges' sources and targets. -/
def eS : IVec S1600000 32 := Cert.Spec.src (m ((c : Thread nD τ).loc main_arg3))
def eD : IVec S1600000 32 := Cert.Spec.dst (m ((c : Thread nD τ).loc main_arg3))
/-- The self loop's weight per node, as the column the kernel program reshapes it to. -/
def wNode : FVec Ideal S100000x1 .f32 := shapeCast S100000x1 (Cert.Spec.dinvSq (F := Ideal) (eD m c)) shapeCasts_S100000_S100000x1
/-- The edges' weights, as the column the kernel program reshapes them to. -/
def wEdge : FVec Ideal S1600000x1 .f32 := shapeCast S1600000x1 (Cert.Spec.nrm (F := Ideal) (eS m c) (eD m c)) shapeCasts_S1600000_S1600000x1
/-- Layer 1: product, neighbour sum, combined. -/
def xw1 : FVec Ideal S100000x128 .f32 := Cert.Spec.mm (F := Ideal) (x0 m c) (m ((c : Thread nD τ).loc main_arg5))
def a1 : FVec Ideal S100000x128 .f32 := Cert.Spec.agg (F := Ideal) (xw1 m c) (eS m c) (eD m c) (wEdge m c)
def h1 : FVec Ideal S100000x128 .f32 := Cert.Spec.combine (F := Ideal) (a1 m c) (xw1 m c) (wNode m c) (m ((c : Thread nD τ).loc main_arg6))
/-- Layer 2. -/
def xw2 : FVec Ideal S100000x128 .f32 := Cert.Spec.mm (F := Ideal) (h1 m c) (m ((c : Thread nD τ).loc main_arg7))
def a2 : FVec Ideal S100000x128 .f32 := Cert.Spec.agg (F := Ideal) (xw2 m c) (eS m c) (eD m c) (wEdge m c)
def h2 : FVec Ideal S100000x128 .f32 := Cert.Spec.combine (F := Ideal) (a2 m c) (xw2 m c) (wNode m c) (m ((c : Thread nD τ).loc main_arg8))
/-- The pooled sums, the node counts as a column, the readout and the result. -/
def pooled : FVec Ideal S256x128 .f32 := Cert.Spec.pool (F := Ideal) (h2 m c) (m ((c : Thread nD τ).loc main_arg2))
def counts : FVec Ideal S256x1 .f32 := shapeCast S256x1 (Cert.Spec.cnt (F := Ideal) (m ((c : Thread nD τ).loc main_arg2))) shapeCasts_S256_S256x1
def out : FVec Ideal S256x1 .f32 := Cert.Spec.mlp (F := Ideal) (pooled m c) (counts m c) (m ((c : Thread nD τ).loc main_arg9)) (m ((c : Thread nD τ).loc main_arg10)) (m ((c : Thread nD τ).loc main_arg11)) (m ((c : Thread nD τ).loc main_arg12))
def result : FVec Ideal S256 .f32 := shapeCast S256 (out m c) shapeCasts_S256x1_S256

/-! ## Boundaries 1 to 3: the host operations before the first region

Three stretches: the embedding rows, the edge endpoints and the degrees; then the outlined `where` that selects
`dinv`; then the two normalisations (the node weight and the edge weight, each reshaped to a column). -/

/-- The buffers the outlined `where` writes. -/
abbrev wr01 : List (Ref sig .tc) := [main_call0_v0, main_call0_v1, main_v20]
/-- The buffers the normalisations write. -/
abbrev wr02 : List (Ref sig .tc) := [main_v21, main_v22, main_c_5, main_v23, main_v24, main_c_6, main_v25, main_v26, main_v27, main_v28,
  main_v29, main_c_7, main_v30, main_v31, main_c_8, main_v32, main_v33, main_v34, main_v35, main_v36, main_v37, main_v38]

theorem wr01_writes : (hostOps0_1 : List (HloOp τ sig (Elt Ideal))).Forall fun op => op.writes ⊆ (wr01.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr02_writes : (hostOps0_2 : List (HloOp τ sig (Elt Ideal))).Forall fun op => op.writes ⊆ (wr02.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keep2 (b : Ref sig .tc) (h : b ∉ wr01) : W2 m ρ c (Proc.devRef .tc b) = W1 m ρ c (Proc.devRef .tc b) :=
  StableHlo.after_of_writes_sub hostOps0_1 _ wr01_writes h
theorem keep3 (b : Ref sig .tc) (h : b ∉ wr02) : W3 m ρ c (Proc.devRef .tc b) = W2 m ρ c (Proc.devRef .tc b) :=
  StableHlo.after_of_writes_sub hostOps0_2 _ wr02_writes h

theorem at1_v6 : W1 m ρ c (Proc.devRef .tc main_v6) = x0 m c := by
  show StableHlo.after hostOps0 (W0 m ρ c) _ = _
  after_results_simp
  rfl
theorem at1_v8 : W1 m ρ c (Proc.devRef .tc main_v8) = eS m c := by
  show StableHlo.after hostOps0 (W0 m ρ c) _ = _
  after_results_simp
  rfl
theorem at1_v10 : W1 m ρ c (Proc.devRef .tc main_v10) = eD m c := by
  show StableHlo.after hostOps0 (W0 m ρ c) _ = _
  after_results_simp
  rfl
theorem at1_v18 : W1 m ρ c (Proc.devRef .tc main_v18) = cmpf .ogt (Cert.Spec.deg (F := Ideal) (eD m c)) (broadcastInDim S100000 ![] bcast_S_S100000 (constant S_ .f32 0x00000000#32)) := by
  show StableHlo.after hostOps0 (W0 m ρ c) _ = _
  after_results_simp
  rfl
theorem at1_v19 : W1 m ρ c (Proc.devRef .tc main_v19) = Host.rsqrt (Cert.Spec.deg (F := Ideal) (eD m c)) := by
  show StableHlo.after hostOps0 (W0 m ρ c) _ = _
  after_results_simp
  rfl
theorem at1_cst4 : W1 m ρ c (Proc.devRef .tc main_cst_4) = (constant S_ .f32 0x00000000#32 : FVec Ideal S_ .f32) := by
  show StableHlo.after hostOps0 (W0 m ρ c) _ = _
  after_results_simp

/-- The outlined `where` over any condition, value and scalar: the typed references' casts are the identity at these
    literal references. -/
theorem where_casts (cnd : IVec S100000 1) (a : FVec Ideal S100000 .f32) (z : FVec Ideal S_ .f32) :
    (TRef.of (sig := sig) (T := ⟨S100000, .f32⟩) main_v20).toBuf (Val := Elt Ideal)
      (select ((TRef.of (sig := sig) (T := ⟨S100000, .i1⟩) main_v18).ofBuf (Val := Elt Ideal) cnd)
        ((TRef.of (sig := sig) (T := ⟨S100000, .f32⟩) main_v19).ofBuf (Val := Elt Ideal) a)
        ((TRef.of (sig := sig) (T := ⟨S100000, .f32⟩) main_call0_v1).ofBuf (Val := Elt Ideal)
          ((TRef.of (sig := sig) (T := ⟨S100000, .f32⟩) main_call0_v1).toBuf (Val := Elt Ideal)
            (broadcastInDim S100000 ![] bcast_S_S100000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_4).ofBuf (Val := Elt Ideal) z))))))))
      = select cnd a (broadcastInDim S100000 ![] bcast_S_S100000 (id z)) := rfl
/-- The outlined `where`: `dinv`. -/
theorem at2_v20 : W2 m ρ c (Proc.devRef .tc main_v20) = Cert.Spec.dinv (F := Ideal) (eD m c) := by
  have e18 := at1_v18 m ρ c
  have e19 := at1_v19 m ρ c
  have e4 := at1_cst4 m ρ c
  show StableHlo.after hostOps0_1 (W1 m ρ c) _ = _
  generalize W1 m ρ c = V at e18 e19 e4 ⊢
  after_results_simp
  rw [e18, e19, e4]
  refine (where_casts _ _ _).trans ?_
  unfold Cert.Spec.dinv
  rfl
theorem at2_v8 : W2 m ρ c (Proc.devRef .tc main_v8) = eS m c := (keep2 m ρ c main_v8 (by decide)).trans (at1_v8 m ρ c)
theorem at2_v10 : W2 m ρ c (Proc.devRef .tc main_v10) = eD m c := (keep2 m ρ c main_v10 (by decide)).trans (at1_v10 m ρ c)

theorem at3_v6 : W3 m ρ c (Proc.devRef .tc main_v6) = x0 m c :=
  (keep3 m ρ c main_v6 (by decide)).trans ((keep2 m ρ c main_v6 (by decide)).trans (at1_v6 m ρ c))
theorem at3_v8 : W3 m ρ c (Proc.devRef .tc main_v8) = eS m c := (keep3 m ρ c main_v8 (by decide)).trans (at2_v8 m ρ c)
theorem at3_v10 : W3 m ρ c (Proc.devRef .tc main_v10) = eD m c := (keep3 m ρ c main_v10 (by decide)).trans (at2_v10 m ρ c)
/-- The node weight `dinv²`, reshaped to a column. -/
theorem at3_v22 : W3 m ρ c (Proc.devRef .tc main_v22) = wNode m c := by
  have e20 := at2_v20 m ρ c
  show StableHlo.after hostOps0_2 (W2 m ρ c) _ = _
  generalize W2 m ρ c = V at e20 ⊢
  after_results_simp
  rw [e20]
  rfl
/-- The edge weight `dinv (s e) · dinv (d e)`, reshaped to a column. -/
theorem at3_v38 : W3 m ρ c (Proc.devRef .tc main_v38) = wEdge m c := by
  have e20 := at2_v20 m ρ c
  have e8 := at2_v8 m ρ c
  have e10 := at2_v10 m ρ c
  show StableHlo.after hostOps0_2 (W2 m ρ c) _ = _
  generalize W2 m ρ c = V at e20 e8 e10 ⊢
  after_results_simp
  rw [e20, e8, e10]
  rfl
theorem at3_arg2 : W3 m ρ c (Proc.devRef .tc main_arg2) = m ((c : Thread nD τ).loc main_arg2) := by
  show StableHlo.after hostOps0_2 (StableHlo.after hostOps0_1 (StableHlo.after hostOps0 (W0 m ρ c))) _ = _
  after_results_simp
theorem at3_arg5 : W3 m ρ c (Proc.devRef .tc main_arg5) = m ((c : Thread nD τ).loc main_arg5) := by
  show StableHlo.after hostOps0_2 (StableHlo.after hostOps0_1 (StableHlo.after hostOps0 (W0 m ρ c))) _ = _
  after_results_simp
theorem at3_arg6 : W3 m ρ c (Proc.devRef .tc main_arg6) = m ((c : Thread nD τ).loc main_arg6) := by
  show StableHlo.after hostOps0_2 (StableHlo.after hostOps0_1 (StableHlo.after hostOps0 (W0 m ρ c))) _ = _
  after_results_simp
theorem at3_arg7 : W3 m ρ c (Proc.devRef .tc main_arg7) = m ((c : Thread nD τ).loc main_arg7) := by
  show StableHlo.after hostOps0_2 (StableHlo.after hostOps0_1 (StableHlo.after hostOps0 (W0 m ρ c))) _ = _
  after_results_simp
theorem at3_arg8 : W3 m ρ c (Proc.devRef .tc main_arg8) = m ((c : Thread nD τ).loc main_arg8) := by
  show StableHlo.after hostOps0_2 (StableHlo.after hostOps0_1 (StableHlo.after hostOps0 (W0 m ρ c))) _ = _
  after_results_simp
theorem at3_arg9 : W3 m ρ c (Proc.devRef .tc main_arg9) = m ((c : Thread nD τ).loc main_arg9) := by
  show StableHlo.after hostOps0_2 (StableHlo.after hostOps0_1 (StableHlo.after hostOps0 (W0 m ρ c))) _ = _
  after_results_simp
theorem at3_arg10 : W3 m ρ c (Proc.devRef .tc main_arg10) = m ((c : Thread nD τ).loc main_arg10) := by
  show StableHlo.after hostOps0_2 (StableHlo.after hostOps0_1 (StableHlo.after hostOps0 (W0 m ρ c))) _ = _
  after_results_simp
theorem at3_arg11 : W3 m ρ c (Proc.devRef .tc main_arg11) = m ((c : Thread nD τ).loc main_arg11) := by
  show StableHlo.after hostOps0_2 (StableHlo.after hostOps0_1 (StableHlo.after hostOps0 (W0 m ρ c))) _ = _
  after_results_simp
theorem at3_arg12 : W3 m ρ c (Proc.devRef .tc main_arg12) = m ((c : Thread nD τ).loc main_arg12) := by
  show StableHlo.after hostOps0_2 (StableHlo.after hostOps0_1 (StableHlo.after hostOps0 (W0 m ρ c))) _ = _
  after_results_simp

/-! ## Buffers a segment does not touch

A region changes only its output array: `Gen.W4_of_ne`, `W6_of_ne`, `W7_of_ne`, `W9_of_ne`, `W11_of_ne` say so for a buffer
that is none of the region's arrays. A host stretch changes only the buffers its operations write, listed here. -/

/-- The buffers the neighbour sum of layer 1 writes. -/
abbrev wr1 : List (Ref sig .tc) := [main_c_9, main_v40, main_v41, main_c_10, main_v42, main_v43, main_v44, main_v45, main_v46,
  main_v47, main_v48, main_cst_11, main_v49, main_v50, main_v51]
/-- The buffers the neighbour sum of layer 2 writes. -/
abbrev wr3 : List (Ref sig .tc) := [main_c_12, main_v54, main_v55, main_c_13, main_v56, main_v57, main_v58, main_v59, main_v60,
  main_v61, main_v62, main_cst_14, main_v63, main_v64, main_v65]
/-- The buffers the pooling writes. -/
abbrev wr4 : List (Ref sig .tc) := [main_cst_15, main_v67, main_cst_16, main_v68, main_v69, main_v70, main_cst_17, main_v71,
  main_v72, main_v73, main_v74]

theorem wr1_writes : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr3_writes : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr4_writes : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keep5 (b : Ref sig .tc) (h : b ∉ wr1) : W5 m ρ c (Proc.devRef .tc b) = W4 m ρ c (Proc.devRef .tc b) :=
  StableHlo.after_of_writes_sub hostOps1 _ wr1_writes h
theorem keep8 (b : Ref sig .tc) (h : b ∉ wr3) : W8 m ρ c (Proc.devRef .tc b) = W7 m ρ c (Proc.devRef .tc b) :=
  StableHlo.after_of_writes_sub hostOps3 _ wr3_writes h
theorem keep10 (b : Ref sig .tc) (h : b ∉ wr4) : W10 m ρ c (Proc.devRef .tc b) = W9 m ρ c (Proc.devRef .tc b) :=
  StableHlo.after_of_writes_sub hostOps4 _ wr4_writes h

/-- A buffer untouched since boundary 3, read at each later boundary. -/
theorem back5 (b : Ref sig .tc) (h5 : b ∉ wr1) (h4 : ∀ w, Pipeline.arrRef spec0 w ≠ b) :
    W5 m ρ c (Proc.devRef .tc b) = W3 m ρ c (Proc.devRef .tc b) :=
  (keep5 m ρ c b h5).trans (W4_of_ne m ρ c b h4)
theorem back6 (b : Ref sig .tc) (h6 : ∀ w, Pipeline.arrRef spec1 w ≠ b) (h5 : b ∉ wr1) (h4 : ∀ w, Pipeline.arrRef spec0 w ≠ b) :
    W6 m ρ c (Proc.devRef .tc b) = W3 m ρ c (Proc.devRef .tc b) :=
  (W6_of_ne m ρ c b h6).trans (back5 m ρ c b h5 h4)
theorem back7 (b : Ref sig .tc) (h7 : ∀ w, Pipeline.arrRef spec2 w ≠ b) (h6 : ∀ w, Pipeline.arrRef spec1 w ≠ b) (h5 : b ∉ wr1)
    (h4 : ∀ w, Pipeline.arrRef spec0 w ≠ b) : W7 m ρ c (Proc.devRef .tc b) = W3 m ρ c (Proc.devRef .tc b) :=
  (W7_of_ne m ρ c b h7).trans (back6 m ρ c b h6 h5 h4)
theorem back8 (b : Ref sig .tc) (h8 : b ∉ wr3) (h7 : ∀ w, Pipeline.arrRef spec2 w ≠ b) (h6 : ∀ w, Pipeline.arrRef spec1 w ≠ b) (h5 : b ∉ wr1)
    (h4 : ∀ w, Pipeline.arrRef spec0 w ≠ b) : W8 m ρ c (Proc.devRef .tc b) = W3 m ρ c (Proc.devRef .tc b) :=
  (keep8 m ρ c b h8).trans (back7 m ρ c b h7 h6 h5 h4)
theorem back9 (b : Ref sig .tc) (h9 : ∀ w, Pipeline.arrRef spec3 w ≠ b) (h8 : b ∉ wr3) (h7 : ∀ w, Pipeline.arrRef spec2 w ≠ b)
    (h6 : ∀ w, Pipeline.arrRef spec1 w ≠ b) (h5 : b ∉ wr1) (h4 : ∀ w, Pipeline.arrRef spec0 w ≠ b) :
    W9 m ρ c (Proc.devRef .tc b) = W3 m ρ c (Proc.devRef .tc b) :=
  (W9_of_ne m ρ c b h9).trans (back8 m ρ c b h8 h7 h6 h5 h4)
theorem back10 (b : Ref sig .tc) (h10 : b ∉ wr4) (h9 : ∀ w, Pipeline.arrRef spec3 w ≠ b) (h8 : b ∉ wr3) (h7 : ∀ w, Pipeline.arrRef spec2 w ≠ b)
    (h6 : ∀ w, Pipeline.arrRef spec1 w ≠ b) (h5 : b ∉ wr1) (h4 : ∀ w, Pipeline.arrRef spec0 w ≠ b) :
    W10 m ρ c (Proc.devRef .tc b) = W3 m ρ c (Proc.devRef .tc b) :=
  (keep10 m ρ c b h10).trans (back9 m ρ c b h9 h8 h7 h6 h5 h4)

/-! ## Layer 1 -/

/-- Region 0 leaves the product of the embedded features with the first weight matrix. -/
theorem at4_v39 : W4 m ρ c (Proc.devRef .tc main_v39) = xw1 m c :=
  (W4_arr m ρ c 2).trans ((matmul0 (V3 m ρ) c).trans (by
    show Cert.Spec.mm (F := Ideal) (W3 m ρ c (Proc.devRef .tc main_v6)) (W3 m ρ c (Proc.devRef .tc main_arg5)) = _
    rw [at3_v6 m ρ c, at3_arg5 m ρ c]; rfl))
theorem at4_v8 : W4 m ρ c (Proc.devRef .tc main_v8) = eS m c := (W4_of_ne m ρ c main_v8 (by decide)).trans (at3_v8 m ρ c)
theorem at4_v10 : W4 m ρ c (Proc.devRef .tc main_v10) = eD m c := (W4_of_ne m ρ c main_v10 (by decide)).trans (at3_v10 m ρ c)
theorem at4_v38 : W4 m ρ c (Proc.devRef .tc main_v38) = wEdge m c := (W4_of_ne m ρ c main_v38 (by decide)).trans (at3_v38 m ρ c)

/-- The host operations after region 0 leave the neighbour sum of that product. -/
theorem at5_v51 : W5 m ρ c (Proc.devRef .tc main_v51) = a1 m c := by
  show StableHlo.after hostOps1 (W4 m ρ c) _ = _
  after_results_simp
  rw [at4_v39 m ρ c, at4_v8 m ρ c, at4_v38 m ρ c, at4_v10 m ρ c]
  rfl
theorem at5_v39 : W5 m ρ c (Proc.devRef .tc main_v39) = xw1 m c := (keep5 m ρ c main_v39 (by decide)).trans (at4_v39 m ρ c)
theorem at5_v22 : W5 m ρ c (Proc.devRef .tc main_v22) = wNode m c := (back5 m ρ c main_v22 (by decide) (by decide)).trans (at3_v22 m ρ c)
theorem at5_arg6 : W5 m ρ c (Proc.devRef .tc main_arg6) = m ((c : Thread nD τ).loc main_arg6) :=
  (back5 m ρ c main_arg6 (by decide) (by decide)).trans (at3_arg6 m ρ c)

/-- Region 1 leaves the first layer's features. -/
theorem at6_v52 : W6 m ρ c (Proc.devRef .tc main_v52) = h1 m c :=
  (W6_arr m ρ c 4).trans ((combine1 (V5 m ρ) c).trans (by
    show Cert.Spec.combine (F := Ideal) (W5 m ρ c (Proc.devRef .tc main_v51)) (W5 m ρ c (Proc.devRef .tc main_v39)) (W5 m ρ c (Proc.devRef .tc main_v22))
      (W5 m ρ c (Proc.devRef .tc main_arg6)) = _
    rw [at5_v51 m ρ c, at5_v39 m ρ c, at5_v22 m ρ c, at5_arg6 m ρ c]; rfl))
/-- The node weights are an input array of region 1, which leaves its inputs as it found them. -/
theorem at6_v22 : W6 m ρ c (Proc.devRef .tc main_v22) = wNode m c :=
  (W6_arr m ρ c 2).trans ((((dat1 (V5 m ρ) c).arrAt_in 2 rfl _).trans (A_eq1 (V5 m ρ) c 2)).trans (at5_v22 m ρ c))
theorem at6_arg7 : W6 m ρ c (Proc.devRef .tc main_arg7) = m ((c : Thread nD τ).loc main_arg7) :=
  (back6 m ρ c main_arg7 (by decide) (by decide) (by decide)).trans (at3_arg7 m ρ c)

/-! ## Layer 2 -/

theorem at7_v53 : W7 m ρ c (Proc.devRef .tc main_v53) = xw2 m c :=
  (W7_arr m ρ c 2).trans ((matmul2 (V6 m ρ) c).trans (by
    show Cert.Spec.mm (F := Ideal) (W6 m ρ c (Proc.devRef .tc main_v52)) (W6 m ρ c (Proc.devRef .tc main_arg7)) = _
    rw [at6_v52 m ρ c, at6_arg7 m ρ c]; rfl))
theorem at7_v8 : W7 m ρ c (Proc.devRef .tc main_v8) = eS m c := (back7 m ρ c main_v8 (by decide) (by decide) (by decide) (by decide)).trans (at3_v8 m ρ c)
theorem at7_v10 : W7 m ρ c (Proc.devRef .tc main_v10) = eD m c := (back7 m ρ c main_v10 (by decide) (by decide) (by decide) (by decide)).trans (at3_v10 m ρ c)
theorem at7_v38 : W7 m ρ c (Proc.devRef .tc main_v38) = wEdge m c := (back7 m ρ c main_v38 (by decide) (by decide) (by decide) (by decide)).trans (at3_v38 m ρ c)
theorem at7_v22 : W7 m ρ c (Proc.devRef .tc main_v22) = wNode m c := (W7_of_ne m ρ c main_v22 (by decide)).trans (at6_v22 m ρ c)

theorem at8_v65 : W8 m ρ c (Proc.devRef .tc main_v65) = a2 m c := by
  show StableHlo.after hostOps3 (W7 m ρ c) _ = _
  after_results_simp
  rw [at7_v53 m ρ c, at7_v8 m ρ c, at7_v38 m ρ c, at7_v10 m ρ c]
  rfl
theorem at8_v53 : W8 m ρ c (Proc.devRef .tc main_v53) = xw2 m c := (keep8 m ρ c main_v53 (by decide)).trans (at7_v53 m ρ c)
theorem at8_v22 : W8 m ρ c (Proc.devRef .tc main_v22) = wNode m c := (keep8 m ρ c main_v22 (by decide)).trans (at7_v22 m ρ c)
theorem at8_arg8 : W8 m ρ c (Proc.devRef .tc main_arg8) = m ((c : Thread nD τ).loc main_arg8) :=
  (back8 m ρ c main_arg8 (by decide) (by decide) (by decide) (by decide) (by decide)).trans (at3_arg8 m ρ c)

theorem at9_v66 : W9 m ρ c (Proc.devRef .tc main_v66) = h2 m c :=
  (W9_arr m ρ c 4).trans ((combine3 (V8 m ρ) c).trans (by
    show Cert.Spec.combine (F := Ideal) (W8 m ρ c (Proc.devRef .tc main_v65)) (W8 m ρ c (Proc.devRef .tc main_v53)) (W8 m ρ c (Proc.devRef .tc main_v22))
      (W8 m ρ c (Proc.devRef .tc main_arg8)) = _
    rw [at8_v65 m ρ c, at8_v53 m ρ c, at8_v22 m ρ c, at8_arg8 m ρ c]; rfl))
theorem at9_arg2 : W9 m ρ c (Proc.devRef .tc main_arg2) = m ((c : Thread nD τ).loc main_arg2) :=
  (back9 m ρ c main_arg2 (by decide) (by decide) (by decide) (by decide) (by decide) (by decide)).trans (at3_arg2 m ρ c)

/-! ## Pooling and the readout -/

theorem at10_v70 : W10 m ρ c (Proc.devRef .tc main_v70) = pooled m c := by
  show StableHlo.after hostOps4 (W9 m ρ c) _ = _
  after_results_simp
  rw [at9_arg2 m ρ c, at9_v66 m ρ c]
  rfl
theorem at10_v74 : W10 m ρ c (Proc.devRef .tc main_v74) = counts m c := by
  show StableHlo.after hostOps4 (W9 m ρ c) _ = _
  after_results_simp
  rw [at9_arg2 m ρ c]
  rfl
theorem at10_arg9 : W10 m ρ c (Proc.devRef .tc main_arg9) = m ((c : Thread nD τ).loc main_arg9) :=
  (back10 m ρ c main_arg9 (by decide) (by decide) (by decide) (by decide) (by decide) (by decide) (by decide)).trans (at3_arg9 m ρ c)
theorem at10_arg10 : W10 m ρ c (Proc.devRef .tc main_arg10) = m ((c : Thread nD τ).loc main_arg10) :=
  (back10 m ρ c main_arg10 (by decide) (by decide) (by decide) (by decide) (by decide) (by decide) (by decide)).trans (at3_arg10 m ρ c)
theorem at10_arg11 : W10 m ρ c (Proc.devRef .tc main_arg11) = m ((c : Thread nD τ).loc main_arg11) :=
  (back10 m ρ c main_arg11 (by decide) (by decide) (by decide) (by decide) (by decide) (by decide) (by decide)).trans (at3_arg11 m ρ c)
theorem at10_arg12 : W10 m ρ c (Proc.devRef .tc main_arg12) = m ((c : Thread nD τ).loc main_arg12) :=
  (back10 m ρ c main_arg12 (by decide) (by decide) (by decide) (by decide) (by decide) (by decide) (by decide)).trans (at3_arg12 m ρ c)

theorem at11_v75 : W11 m ρ c (Proc.devRef .tc main_v75) = out m c :=
  (W11_arr m ρ c 6).trans ((readout4 (V10 m ρ) c).trans (by
    show Cert.Spec.mlp (F := Ideal) (W10 m ρ c (Proc.devRef .tc main_v70)) (W10 m ρ c (Proc.devRef .tc main_v74)) (W10 m ρ c (Proc.devRef .tc main_arg9))
      (W10 m ρ c (Proc.devRef .tc main_arg10)) (W10 m ρ c (Proc.devRef .tc main_arg11)) (W10 m ρ c (Proc.devRef .tc main_arg12)) = _
    rw [at10_v70 m ρ c, at10_v74 m ρ c, at10_arg9 m ρ c, at10_arg10 m ρ c, at10_arg11 m ρ c, at10_arg12 m ρ c]; rfl))

/-- THE RESULT ARRAY at the last boundary: the readout's column as a vector. -/
theorem at12_v76 : W12 m ρ c (Proc.devRef .tc main_v76) = result m c := by
  show StableHlo.after hostOps5 (W11 m ρ c) _ = _
  after_results_simp
  rw [at11_v75 m ρ c]
  rfl

end Cert.KernelIdeal.Walk

end
-- ==== Proof.LibColumn.lean ====
/-
  A vector as a column. Reshaping a vector of `n` entries to the `n × 1` column and broadcasting it along dimension 0
  into that column are the same array: entry `(r, 0)` of either is entry `r` of the vector. For every `n` and every
  element type. (The kernel side of a program often reshapes where the reference writes `x[:, None]`.)
-/
import Idealize.ShloMosaic.Lib.Pipeline.Value
import Idealize.ShloMosaic.Lib.ValueIdx

namespace Cert.Lib.Column

open Idealize.ShloMosaic Idealize.ShloMosaic.ValueIdx

/-- `reshape [n] → [n, 1]` is `broadcast_in_dim dims = [0] : [n] → [n, 1]`. -/
theorem shapeCast_col_eq_broadcastInDim {α : Type} {n : Nat} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x hc = broadcastInDim ⟨2, ![n, 1]⟩ ![0] hb x := by
  funext i
  have h1 : (i 1).val = 0 := by
    have := (i 1).isLt
    have e : (i 1).val < 1 := this
    omega
  have e1 := shapeCast_apply x hc i (ix1 (i 0 : Fin n)) (by
    rw [Shape.rowMajor_val_one, Shape.rowMajor_val_two]
    show (i 0).val = (i 0).val * 1 + (i 1).val
    omega)
  have e2 := broadcastInDim_apply ![0] hb x i (ix1 (i 0 : Fin n)) (by
    intro a
    match a with
    | ⟨0, _⟩ =>
      show (i 0).val = if n = 1 then 0 else (i 0).val
      split
      · have := (i 0).isLt
        have e : (i 0).val < n := this
        omega
      · rfl)
  rw [e1, e2]

end Cert.Lib.Column
-- ==== Proof.Bridge.lean ====
/-
  The kernel program's result is the network's energy.

  The walk reads the result array as a chain of stages that differs from the specification's composition in three
  places only, each a matter of layout: the kernel program RESHAPES the node weights `dinv²`, the edge weights `nrm` and
  the node counts to columns where the specification broadcasts them along dimension 0 — the same column, entry
  `(r, 0)` being entry `r` of the vector — and it clamps the counts below by one after making them a column rather than
  before, which is the same entry by entry. With these three equations the chain of stages IS `Spec.energy`, the two
  convolutions unfolded.
-/
import proofs.«169915_j80625126081179_1_alg».proof.Proof.Walk
import proofs.«169915_j80625126081179_1_alg».proof.Proof.LibColumn

set_option maxRecDepth 16384

noncomputable section

namespace Cert.KernelIdeal.Bridge

open Idealize.ShloMosaic Idealize.ShloMosaic.TcCoe Idealize.SL.Sem
open Cert.KernelIdeal Cert.KernelIdeal.Gen Cert.KernelIdeal.Walk

variable (m : (ℓ : Loc nD τ sig) → Buf (Elt Ideal) ℓ) (c : Dev nD)

/-- A vector over the nodes reshaped to a column is the specification's column of it. -/
theorem node_col (x : FVec Ideal S100000 .f32) :
    shapeCast S100000x1 x shapeCasts_S100000_S100000x1 = Cert.Spec.nodeCol (F := Ideal) x :=
  Cert.Lib.Column.shapeCast_col_eq_broadcastInDim x _ _

/-- A vector over the edges reshaped to a column is the specification's column of it. -/
theorem edge_col (x : FVec Ideal S1600000 .f32) :
    shapeCast S1600000x1 x shapeCasts_S1600000_S1600000x1 = Cert.Spec.edgeCol (F := Ideal) x :=
  Cert.Lib.Column.shapeCast_col_eq_broadcastInDim x _ _

/-- The node counts made a column and then clamped below by one are the counts clamped and then made a column. -/
theorem count_col (v : FVec Ideal S256 .f32) :
    maximumf (shapeCast S256x1 v shapeCasts_S256_S256x1)
        (broadcastInDim Cert.ReferenceIdeal.S256x1 ![] (by decide) (constant Cert.ReferenceIdeal.S_ .f32 0x3F800000#32))
      = broadcastInDim Cert.ReferenceIdeal.S256x1 ![0] Cert.ReferenceIdeal.Gen.bcast_S256_S256x1_0
          (maximumf v (broadcastInDim Cert.ReferenceIdeal.S256 ![] Cert.ReferenceIdeal.Gen.bcast_S_S256
            (constant Cert.ReferenceIdeal.S_ .f32 0x3F800000#32))) := by
  rw [Cert.Lib.Column.shapeCast_col_eq_broadcastInDim v shapeCasts_S256_S256x1 Cert.ReferenceIdeal.Gen.bcast_S256_S256x1_0]
  funext i
  rfl

attribute [local irreducible] Host.scatterAdd Host.gather Host.rsqrt in
/-- THE KERNEL PROGRAM'S RESULT: the energy of the network on the argument arrays. -/
theorem result_eq :
    result m c = Cert.Spec.energy (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) (m ((c : Thread nD τ).loc main_arg12)) := by
  unfold result out counts pooled h2 a2 xw2 h1 a1 xw1 wEdge wNode
  rw [node_col, edge_col]
  unfold Cert.Spec.mlp
  rw [count_col]
  rfl

end Cert.KernelIdeal.Bridge

end
-- ==== Proof.RefValue.lean ====
/-
  The reference program's result is the network's energy: its composed term of the argument arrays — the operations of
  @main one inside the other — is the specification's composition of stages, the stages unfolded. The reference
  computes the degrees and `dinv` once per layer; the specification names them once: the two copies are the same term.
-/
import proofs.«169915_j80625126081179_1_alg».proof.Proof.Spec
import proofs.«169915_j80625126081179_1_alg».proof.Proof.RefRun
import Idealize.ShloMosaic.PureOps.Ideal

set_option maxRecDepth 16384

noncomputable section

namespace Cert.ReferenceIdeal.RefValue

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

attribute [local irreducible] Host.scatterAdd Host.gather Host.rsqrt Host.divf Host.exp Host.negf in
set_option maxHeartbeats 2000000 in
/-- THE REFERENCE PROGRAM'S RESULT: the energy of the network on the argument arrays. -/
theorem result_eq :
    Cert.ReferenceIdeal.ValueP.res_main_v128 (F := Ideal) m c
      = Cert.Spec.energy (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v128
  rfl

end Cert.ReferenceIdeal.RefValue

end
-- ==== Proof.lean ====
/-
  The certificate of a two-layer graph convolution network with mean pooling and a two-layer readout
  (100000 nodes of 128 features, 1600000 edges, 256 graphs): the kernel program — two dense products, two
  combine kernels and a readout kernel among host gathers and scatter-adds — against the plain reference.

  At the exact instance both programs compute, for every graph, the same energy (`Cert.Spec.energy`):
  * the kernel program's result is read through its twelve segments (Proof/RunValue.lean: the run with the result
    array read; Proof/Walk.lean: the array followed boundary by boundary; Proof/MatmulRegion.lean,
    Proof/CombineRegion.lean, Proof/ReadoutRegion.lean: what each region leaves, as one whole-array function — a
    tiled product of row blocks is the product's rows, a matrix product into a zero accumulator is the host's
    product, and `logistic h = 1 / (1 + exp (−h))` —; Proof/Bridge.lean: the stages are the network, a reshape to a
    column being a broadcast to it);
  * the reference program's result is its operations composed (Proof/RefRun.lean), which are the network's stages
    unfolded (Proof/RefValue.lean).
  No law of arithmetic is needed: the two programs apply the same operations to the same values, so finiteness of
  the inputs is never opened. The idealization rewrote no operation, so `preserves`
  is trivial; the three frames are the generated ones (the reference's: its run with the result dropped).
-/
import proofs.«169915_j80625126081179_1_alg».proof.Defs
import proofs.«169915_j80625126081179_1_alg».proof.Proof.Gen.Kernel
import proofs.«169915_j80625126081179_1_alg».proof.Proof.Gen.Kernel.Skeleton
import proofs.«169915_j80625126081179_1_alg».proof.Proof.Gen.Kernel.Launch
import proofs.«169915_j80625126081179_1_alg».proof.Proof.Gen.Kernel.Points
import proofs.«169915_j80625126081179_1_alg».proof.Proof.Gen.Kernel.Frame
import proofs.«169915_j80625126081179_1_alg».proof.Proof.Gen.KernelIdeal
import proofs.«169915_j80625126081179_1_alg».proof.Proof.Gen.KernelIdeal.Skeleton
import proofs.«169915_j80625126081179_1_alg».proof.Proof.Gen.KernelIdeal.Launch
import proofs.«169915_j80625126081179_1_alg».proof.Proof.Gen.KernelIdeal.Points
import proofs.«169915_j80625126081179_1_alg».proof.Proof.Gen.KernelIdeal.Frame
import proofs.«169915_j80625126081179_1_alg».proof.Proof.Gen.ReferenceIdeal
import proofs.«169915_j80625126081179_1_alg».proof.Proof.Gen.Pre_finite_inputs
import proofs.«169915_j80625126081179_1_alg».proof.Proof.RunValue
import proofs.«169915_j80625126081179_1_alg».proof.Proof.Bridge
import proofs.«169915_j80625126081179_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the energies of the network on the argument arrays, which agree. -/
theorem algebraic : Cert.algebraic_KernelIdeal_ReferenceIdeal := by
  intro m ρ m' ρ' _ hagree
  refine ⟨fun c => Cert.KernelIdeal.Walk.result m c, ?_, ?_⟩
  · exact (θ_run Cert.KernelIdeal.defs _ _).mono
      (fun r h c => ⟨(h c).1.trans (Cert.KernelIdeal.Walk.at12_v76 m ρ c), (h c).2⟩)
      (Cert.KernelIdeal.RunValue.run_result m ρ)
  · refine (θ_run Cert.ReferenceIdeal.defs _ _).mono (fun r h c => ⟨(h c).1.trans ?_, (h c).2⟩)
      (Cert.ReferenceIdeal.ValueP.run (F := Ideal) m' ρ')
    show _ = Cert.KernelIdeal.Walk.result m c
    rw [Cert.ReferenceIdeal.RefValue.result_eq m' c, (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2]
    exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
